-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S4096x16 .f32 .bf16
  ∧ IdealRules.truncf_extf.Statement Cert.KernelIdeal.S1x16 .f32 .bf16
  ∧ IdealRules.truncf_extf.Statement Cert.KernelIdeal.S1024x128 .f32 .bf16
  ∧ IdealRules.truncf_extf.Statement Cert.KernelIdeal.S1x128 .f32 .bf16
  ∧ IdealRules.truncf_extf.Statement Cert.KernelIdeal.S4096x16 .f32 .bf16
  ∧ IdealRules.truncf_extf.Statement Cert.KernelIdeal.S1x16 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S4096x16 : Shape := ⟨2, ![4096, 16]⟩
abbrev S4096x4096 : Shape := ⟨2, ![4096, 4096]⟩
abbrev S1024x1024 : Shape := ⟨2, ![1024, 1024]⟩
abbrev S1024x4096 : Shape := ⟨2, ![1024, 4096]⟩
abbrev S128x128 : Shape := ⟨2, ![128, 128]⟩
abbrev S128 : Shape := ⟨1, ![128]⟩
abbrev S1x16 : Shape := ⟨2, ![1, 16]⟩
abbrev S16x16 : Shape := ⟨2, ![16, 16]⟩
abbrev S16 : Shape := ⟨1, ![16]⟩
abbrev S1x128 : Shape := ⟨2, ![1, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x16 : S_.BroadcastsInDim S1x16 (![] : Fin 0 → Fin S1x16.rank)
  reducesTo_S1x16_S_d0_1 : S1x16.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S1x128 : S_.BroadcastsInDim S1x128 (![] : Fin 0 → Fin S1x128.rank)
  reducesTo_S1x128_S_d0_1 : S1x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128x128 .f32) (main_arg12 : FVec F S128 .f32) (main_arg13 : FVec F S1x16 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S1x16 .f32 := Host.absf main_arg13
  let main_cst_24 : FVec F S_ .f32 := constant S_ .f32 0x7F800000#32
  let main_v65 : FVec F S1x16 .f32 := broadcastInDim S1x16 ![] bcast_S_S1x16 main_cst_24
  let main_v66 : IVec S1x16 1 := cmpf .olt main_v64 main_v65
  let main_c_25 : IVec S_ 1 := constantI S_ 1 1#1
  let main_v67 : IVec S_ 1 := (fun x v => Host.reduce IntOp.andi x v reducesTo_S1x16_S_d0_1 h_S_) main_v66 main_c_25
  fn_part4 (F := F) main_v63 main_v67

def fn_part2 {F : FTy → Type} [FloatOps F] (main_arg7 : FVec F S1x16 .f32) (main_arg8 : FVec F S16x16 .f32) (main_arg9 : FVec F S16 .f32) (main_arg10 : FVec F S1x128 .f32) (main_arg11 : FVec F S128x128 .f32) (main_arg12 : FVec F S128 .f32) (main_arg13 : FVec F S1x16 .f32) (main_v33 : IVec S_ 1) : IVec S_ 1 :=
  let main_v34 : FVec F S1x16 .f32 := Host.absf main_arg7
  let main_cst_12 : FVec F S_ .f32 := constant S_ .f32 0x7F800000#32
  let main_v35 : FVec F S1x16 .f32 := broadcastInDim S1x16 ![] bcast_S_S1x16 main_cst_12
  let main_v36 : IVec S1x16 1 := cmpf .olt main_v34 main_v35
  let main_c_13 : IVec S_ 1 := constantI S_ 1 1#1
  let main_v37 : IVec S_ 1 := (fun x v => Host.reduce IntOp.andi x v reducesTo_S1x16_S_d0_1 h_S_) main_v36 main_c_13
  let main_v38 : IVec S_ 1 := andi main_v33 main_v37
  let main_v39 : FVec F S16x16 .f32 := Host.absf main_arg8
  let main_cst_14 : FVec F S_ .f32 := constant S_ .f32 0x7F800000#32
  let main_v40 : FVec F S16x16 .f32 := broadcastInDim S16x16 ![] bcast_S_S16x16 main_cst_14
  let main_v41 : IVec S16x16 1 := cmpf .olt main_v39 main_v40
  let main_c_15 : IVec S_ 1 := constantI S_ 1 1#1
  let main_v42 : IVec S_ 1 := (fun x v => Host.reduce IntOp.andi x v reducesTo_S16x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_arg11 main_arg12 main_arg13 main_v48 main_v49 main_v50

def fn_part1 {F : FTy → Type} [FloatOps F] (main_arg4 : FVec F S1024x4096 .f32) (main_arg5 : FVec F S128x128 .f32) (main_arg6 : FVec F S128 .f32) (main_arg7 : FVec F S1x16 .f32) (main_arg8 : FVec F S16x16 .f32) (main_arg9 : FVec F S16 .f32) (main_arg10 : FVec F S1x128 .f32) (main_arg11 : FVec F S128x128 .f32) (main_arg12 : FVec F S128 .f32) (main_arg13 : FVec F S1x16 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1024x128 .f32) (main_arg1 : FVec F S4096x16 .f32) (main_arg2 : FVec F S4096x4096 .f32) (main_arg3 : FVec F S1024x1024 .f32) (main_arg4 : FVec F S1024x4096 .f32) (main_arg5 : FVec F S128x128 .f32) (main_arg6 : FVec F S128 .f32) (main_arg7 : FVec F S1x16 .f32) (main_arg8 : FVec F S16x16 .f32) (main_arg9 : FVec F S16 .f32) (main_arg10 : FVec F S1x128 .f32) (main_arg11 : FVec F S128x128 .f32) (main_arg12 : FVec F S128 .f32) (main_arg13 : FVec F S1x16 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S1024x128 : Shape := ⟨2, ![1024, 128]⟩
abbrev S4096x16 : Shape := ⟨2, ![4096, 16]⟩
abbrev S4096x4096 : Shape := ⟨2, ![4096, 4096]⟩
abbrev S1024x1024 : Shape := ⟨2, ![1024, 1024]⟩
abbrev S1024x4096 : Shape := ⟨2, ![1024, 4096]⟩
abbrev S128x128 : Shape := ⟨2, ![128, 128]⟩
abbrev S128 : Shape := ⟨1, ![128]⟩
abbrev S1x16 : Shape := ⟨2, ![1, 16]⟩
abbrev S16x16 : Shape := ⟨2, ![16, 16]⟩
abbrev S16 : Shape := ⟨1, ![16]⟩
abbrev S1x128 : Shape := ⟨2, ![1, 128]⟩
abbrev S256x1024 : Shape := ⟨2, ![256, 1024]⟩
abbrev S256x4096 : Shape := ⟨2, ![256, 4096]⟩
abbrev S256x128 : Shape := ⟨2, ![256, 128]⟩
abbrev S4096 : Shape := ⟨1, ![4096]⟩
abbrev S1x4096 : Shape := ⟨2, ![1, 4096]⟩
abbrev S1024x256 : Shape := ⟨2, ![1024, 256]⟩
abbrev S256x16 : Shape := ⟨2, ![256, 16]⟩
abbrev S1024 : Shape := ⟨1, ![1024]⟩
abbrev S1024x1 : Shape := ⟨2, ![1024, 1]⟩

abbrev nBuf : Space → Nat
  | .hbm => 21
  | .vmem => 36
  | .smem => 0
  | _ => 0

abbrev bufTy : (tb : Table) → Fin (tcTables nBuf tb) → BufTy
  | .hbm, ⟨0, _⟩ => ⟨S1024x128, .f32⟩
  | .hbm, ⟨1, _⟩ => ⟨S4096x16, .f32⟩
  | .hbm, ⟨2, _⟩ => ⟨S4096x4096, .f32⟩
  | .hbm, ⟨3, _⟩ => ⟨S1024x1024, .f32⟩
  | .hbm, ⟨4, _⟩ => ⟨S1024x4096, .f32⟩
  | .hbm, ⟨5, _⟩ => ⟨S128x128, .f32⟩
  | .hbm, ⟨6, _⟩ => ⟨S128, .f32⟩
  | .hbm, ⟨7, _⟩ => ⟨S1x16, .f32⟩
  | .hbm, ⟨8, _⟩ => ⟨S16x16, .f32⟩
  | .hbm, ⟨9, _⟩ => ⟨S16, .f32⟩
  | .hbm, ⟨10, _⟩ => ⟨S1x128, .f32⟩
  | .hbm, ⟨11, _⟩ => ⟨S128x128, .f32⟩
  | .hbm, ⟨12, _⟩ => ⟨S128, .f32⟩
  | .hbm, ⟨13, _⟩ => ⟨S1x16, .f32⟩
  | .hbm, ⟨14, _⟩ => ⟨S1024x4096, .bf16⟩
  | .hbm, ⟨15, _⟩ => ⟨S1x128, .f32⟩
  | .hbm, ⟨16, _⟩ => ⟨S1024x128, .f32⟩
  | .hbm, ⟨17, _⟩ => ⟨S1x16, .f32⟩
  | .hbm, ⟨18, _⟩ => ⟨S4096x16, .f32⟩
  | .hbm, ⟨19, _⟩ => ⟨S1x128, .f32⟩
  | .hbm, ⟨20, _⟩ => ⟨S1024x128, .f32⟩
  | .local _ .vmem, ⟨0, _⟩ => ⟨S1024x128, .f32⟩
  | .local _ .vmem, ⟨1, _⟩ => ⟨S4096x16, .f32⟩
  | .local _ .vmem, ⟨2, _⟩ => ⟨S256x1024, .f32⟩
  | .local _ .vmem, ⟨3, _⟩ => ⟨S256x1024, .f32⟩
  | .local _ .vmem, ⟨4, _⟩ => ⟨S256x4096, .f32⟩
  | .local _ .vmem, ⟨5, _⟩ => ⟨S256x4096, .f32⟩
  | .local _ .vmem, ⟨6, _⟩ => ⟨S1024x4096, .bf16⟩
  | .local _ .vmem, ⟨7, _⟩ => ⟨S128x128, .f32⟩
  | .local _ .vmem, ⟨8, _⟩ => ⟨S1x128, .f32⟩
  | .local _ .vmem, ⟨9, _⟩ => ⟨S1x16, .f32⟩
  | .local _ .vmem, ⟨10, _⟩ => ⟨S256x128, .f32⟩
  | .local _ .vmem, ⟨11, _⟩ => ⟨S256x128, .f32⟩
  | .local _ .vmem, ⟨12, _⟩ => ⟨S1024x128, .f32⟩
  | .local _ .vmem, ⟨13, _⟩ => ⟨S4096x16, .f32⟩
  | .local _ .vmem, ⟨14, _⟩ => ⟨S256x4096, .f32⟩
  | .local _ .vmem, ⟨15, _⟩ => ⟨S256x4096, .f32⟩
  | .local _ .vmem, ⟨16, _⟩ => ⟨S1024x256, .f32⟩
  | .local _ .vmem, ⟨17, _⟩ => ⟨S1024x256, .f32⟩
  | .local _ .vmem, ⟨18, _⟩ => ⟨S1024x4096, .bf16⟩
  | .local _ .vmem, ⟨19, _⟩ => ⟨S16x16, .f32⟩
  | .local _ .vmem, ⟨20, _⟩ => ⟨S1x16, .f32⟩
  | .local _ .vmem, ⟨21, _⟩ => ⟨S1x128, .f32⟩
  | .local _ .vmem, ⟨22, _⟩ => ⟨S256x16, .f32⟩
  | .local _ .vmem, ⟨23, _⟩ => ⟨S256x16, .f32⟩
  | .local _ .vmem, ⟨24, _⟩ => ⟨S1024x128, .f32⟩
  | .local _ .vmem, ⟨25, _⟩ => ⟨S4096x16, .f32⟩
  | .local _ .vmem, ⟨26, _⟩ => ⟨S256x1024, .f32⟩
  | .local _ .vmem, ⟨27, _⟩ => ⟨S256x1024, .f32⟩
  | .local _ .vmem, ⟨28, _⟩ => ⟨S256x4096, .f32⟩
  | .local _ .vmem, ⟨29, _⟩ => ⟨S256x4096, .f32⟩
  | .local _ .vmem, ⟨30, _⟩ => ⟨S1024x4096, .bf16⟩
  | .local _ .vmem, ⟨31, _⟩ => ⟨S128x128, .f32⟩
  | .local _ .vmem, ⟨32, _⟩ => ⟨S1x128, .f32⟩
  | .local _ .vmem, ⟨33, _⟩ => ⟨S1x16, .f32⟩
  | .local _ .vmem, ⟨34, _⟩ => ⟨S256x128, .f32⟩
  | .local _ .vmem, ⟨35, _⟩ => ⟨S256x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem1_0 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S4096x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1024x4096 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S256x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bitsLt_bf16_f32 : FTy.bits .bf16 < FTy.bits .f32
  shapeCasts_S128_S1x128 : S128.ShapeCasts S1x128
  inb_S4096x16_S4096x16_0_0 : ∀ a, (![0, 0] : Fin 2 → Nat) a + S4096x16.size a ≤ S4096x16.size a
  h_S4096x16 : 0 < S4096x16.numel
  inb_S1x16_S1x16_0_0 : ∀ a, (![0, 0] : Fin 2 → Nat) a + S1x16.size a ≤ S1x16.size a
  h_S1x16 : 0 < S1x16.numel
  broadcasts_S1x16_S4096x16 : S1x16.Broadcasts S4096x16
  reduces_S4096x16_S4096 : S4096x16.Reduces [1] S4096
  inb_S256x4096_S256x4096_0_0 : ∀ a, (![0, 0] : Fin 2 → Nat) a + S256x4096.size a ≤ S256x4096.size a
  h_S256x4096 : 0 < S256x4096.numel
  shapeCasts_S4096_S1x4096 : S4096.ShapeCasts S1x4096
  broadcasts_S1x4096_S256x4096 : S1x4096.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  iota_S256x1024_d0_w32 : S256x1024.Iotas .tc 32 [0]
  iota_S256x1024_d1_w32 : S256x1024.Iotas .tc 32 [1]
  inb_S256x1024_S256x1024_0_0 : ∀ a, (![0, 0] : Fin 2 → Nat) a + S256x1024.size a ≤ S256x1024.size a
  h_S256x1024 : 0 < S256x1024.numel
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  shapeCasts_S16_S1x16 : S16.ShapeCasts S1x16
  shapeCasts_S1024x128_S1024x128 : S1024x128.ShapeCasts S1024x128
  broadcasts_S1x128_S1024x128 : S1x128.Broadcasts S1024x128
  reduces_S1024x128_S1024 : S1024x128.Reduces [1] S1024
  inb_S1024x256_S1024x256_0_0 : ∀ a, (![0, 0] : Fin 2 → Nat) a + S1024x256.size a ≤ S1024x256.size a
  h_S1024x256 : 0 < S1024x256.numel
  shapeCasts_S1024_S1024x1 : S1024.ShapeCasts S1024x1
  broadcasts_S1024x1_S1024x256 : S1024x1.Broadcasts S1024x256
  iota_S256x4096_d0_w32 : S256x4096.Iotas .tc 32 [0]
  iota_S256x4096_d1_w32 : S256x4096.Iotas .tc 32 [1]
  inb_S16x16_S16x16_0_0 : ∀ a, (![0, 0] : Fin 2 → Nat) a + S16x16.size a ≤ S16x16.size a
  h_S16x16 : 0 < S16x16.numel
  shapeCasts_S1x16_S1x16 : S1x16.ShapeCasts S1x16
  broadcasts_S1x16_S256x16 : S1x16.Broadcasts S256x16
  inb_S256x16_S256x16_0_0 : ∀ a, (![0, 0] : Fin 2 → Nat) a + S256x16.size a ≤ S256x16.size a
  h_S256x16 : 0 < S256x16.numel
  shapeCasts_S4096x16_S4096x16 : S4096x16.ShapeCasts S4096x16
  dot_S256x4096_S1024x4096_S256x1024_1_1_0_0_n_n_wf : DotDims.WF S256x4096 S1024x4096 S256x1024 [1] [1] [0] [0] [] []
  dot_S1024x128_S128x128_S1024x128_1_0_0_1_n_n_wf : DotDims.WF S1024x128 S128x128 S1024x128 [1] [0] [0] [1] [] []
  dot_S256x1024_S1024x128_S256x128_1_0_0_1_n_n_wf : DotDims.WF S256x1024 S1024x128 S256x128 [1] [0] [0] [1] [] []
  dot_S1024x256_S1024x4096_S256x4096_0_0_1_1_n_n_wf : DotDims.WF S1024x256 S1024x4096 S256x4096 [0] [0] [1] [1] [] []
  dot_S4096x16_S16x16_S4096x16_1_0_0_1_n_n_wf : DotDims.WF S4096x16 S16x16 S4096x16 [1] [0] [0] [1] [] []
  dot_S256x4096_S4096x16_S256x16_1_0_0_1_n_n_wf : DotDims.WF S256x4096 S4096x16 S256x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S4096x16.size a
  hwx0_1 : ∀ i : grid0.Coords, EltTy.bits .f32 = 32 ∨ (Rect.block (s := S4096x16) S4096x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S1024x1024.size a
  hwx0_2 : ∀ i : grid0.Coords, EltTy.bits .f32 = 32 ∨ (Rect.block (s := S1024x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S1024x4096.size a
  hwx0_3 : ∀ i : grid0.Coords, EltTy.bits .f32 = 32 ∨ (Rect.block (s := S1024x4096) S256x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S1024x128.size a
  hwx0_8 : ∀ i : grid0.Coords, EltTy.bits .f32 = 32 ∨ (Rect.block (s := S1024x128) S256x128.size (cc0_transform_8 i) (hinb0_8 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x128.size a
  hwx1_0 : ∀ i : grid1.Coords, EltTy.bits .f32 = 32 ∨ (Rect.block (s := S1024x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x16.size a ≤ S4096x16.size a
  hwx1_1 : ∀ i : grid1.Coords, EltTy.bits .f32 = 32 ∨ (Rect.block (s := S4096x16) S4096x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .f32 = 32 ∨ (Rect.block (s := S4096x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S1024x4096.size a
  hwx1_3 : ∀ i : grid1.Coords, EltTy.bits .f32 = 32 ∨ (Rect.block (s := S1024x4096) S1024x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S1024x4096.size a
  hwx1_4 : ∀ i : grid1.Coords, EltTy.bits .bf16 = 32 ∨ (Rect.block (s := S1024x4096) S1024x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x16.size a ≤ S16x16.size a
  hwx1_5 : ∀ i : grid1.Coords, EltTy.bits .f32 = 32 ∨ (Rect.block (s := S16x16) S16x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x16.size a ≤ S4096x16.size a
  hwx1_8 : ∀ i : grid1.Coords, EltTy.bits .f32 = 32 ∨ (Rect.block (s := S4096x16) S256x16.size (cc1_transform_8 i) (hinb1_8 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S1024x128.size a
  hwx2_0 : ∀ i : grid2.Coords, EltTy.bits .f32 = 32 ∨ (Rect.block (s := S1024x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x16.size a ≤ S4096x16.size a
  hwx2_1 : ∀ i : grid2.Coords, EltTy.bits .f32 = 32 ∨ (Rect.block (s := S4096x16) S4096x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S1024x1024.size a
  hwx2_2 : ∀ i : grid2.Coords, EltTy.bits .f32 = 32 ∨ (Rect.block (s := S1024x1024) S256x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x4096.size a ≤ S1024x4096.size a
  hwx2_3 : ∀ i : grid2.Coords, EltTy.bits .f32 = 32 ∨ (Rect.block (s := S1024x4096) S256x4096.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x4096.size a ≤ S1024x4096.size a
  hwx2_4 : ∀ i : grid2.Coords, EltTy.bits .bf16 = 32 ∨ (Rect.block (s := S1024x4096) S1024x4096.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x16.size a ≤ S1x16.size a
  hwx2_7 : ∀ i : grid2.Coords, EltTy.bits .f32 = 32 ∨ (Rect.block (s := S1x16) S1x16.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S1024x128.size a
  hwx2_8 : ∀ i : grid2.Coords, EltTy.bits .f32 = 32 ∨ (Rect.block (s := S1024x128) S256x128.size (cc2_transform_8 i) (hinb2_8 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S1024x256_S1024x4096_S256x4096_0_0_1_1_n_n : DotDims S1024x256 S1024x4096 S256x4096 where
  lhsContracting := [0]
  rhsContracting := [0]
  lhsNonContracting := [1]
  rhsNonContracting := [1]
  lhsBatch := []
  rhsBatch := []
  wf := dot_S1024x256_S1024x4096_S256x4096_0_0_1_1_n_n_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S256x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v2) S1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1024x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S16x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v4) S256x16.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v2) S1024x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v4) S4096x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S256x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S256x4096.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v0) S1024x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S1x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v6) S256x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S1024x128 : Shape := ⟨2, ![1024, 128]⟩
abbrev S4096x16 : Shape := ⟨2, ![4096, 16]⟩
abbrev S4096x4096 : Shape := ⟨2, ![4096, 4096]⟩
abbrev S1024x1024 : Shape := ⟨2, ![1024, 1024]⟩
abbrev S1024x4096 : Shape := ⟨2, ![1024, 4096]⟩
abbrev S128x128 : Shape := ⟨2, ![128, 128]⟩
abbrev S128 : Shape := ⟨1, ![128]⟩
abbrev S1x16 : Shape := ⟨2, ![1, 16]⟩
abbrev S16x16 : Shape := ⟨2, ![16, 16]⟩
abbrev S16 : Shape := ⟨1, ![16]⟩
abbrev S1x128 : Shape := ⟨2, ![1, 128]⟩
abbrev S16x1 : Shape := ⟨2, ![16, 1]⟩
abbrev S4096x1 : Shape := ⟨2, ![4096, 1]⟩
abbrev S4096 : Shape := ⟨1, ![4096]⟩
abbrev S1x4096 : Shape := ⟨2, ![1, 4096]⟩
abbrev S4096x1024 : Shape := ⟨2, ![4096, 1024]⟩
abbrev S_ : Shape := ⟨0, ![]⟩
abbrev S128x1 : Shape := ⟨2, ![128, 1]⟩
abbrev S1024x1 : Shape := ⟨2, ![1024, 1]⟩
abbrev S1024 : Shape := ⟨1, ![1024]⟩
abbrev S1x1024 : Shape := ⟨2, ![1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S4096x16, .f32⟩
  | .hbm, ⟨2, _⟩ => ⟨S4096x4096, .f32⟩
  | .hbm, ⟨3, _⟩ => ⟨S1024x1024, .f32⟩
  | .hbm, ⟨4, _⟩ => ⟨S1024x4096, .f32⟩
  | .hbm, ⟨5, _⟩ => ⟨S128x128, .f32⟩
  | .hbm, ⟨6, _⟩ => ⟨S128, .f32⟩
  | .hbm, ⟨7, _⟩ => ⟨S1x16, .f32⟩
  | .hbm, ⟨8, _⟩ => ⟨S16x16, .f32⟩
  | .hbm, ⟨9, _⟩ => ⟨S16, .f32⟩
  | .hbm, ⟨10, _⟩ => ⟨S1x128, .f32⟩
  | .hbm, ⟨11, _⟩ => ⟨S128x128, .f32⟩
  | .hbm, ⟨12, _⟩ => ⟨S128, .f32⟩
  | .hbm, ⟨13, _⟩ => ⟨S1x16, .f32⟩
  | .hbm, ⟨14, _⟩ => ⟨S16x1, .f32⟩
  | .hbm, ⟨15, _⟩ => ⟨S4096x1, .f32⟩
  | .hbm, ⟨16, _⟩ => ⟨S4096, .f32⟩
  | .hbm, ⟨17, _⟩ => ⟨S1x4096, .f32⟩
  | .hbm, ⟨18, _⟩ => ⟨S1024x4096, .f32⟩
  | .hbm, ⟨19, _⟩ => ⟨S1024x4096, .f32⟩
  | .hbm, ⟨20, _⟩ => ⟨S4096x1024, .f32⟩
  | .hbm, ⟨21, _⟩ => ⟨S1024x1024, .f32⟩
  | .hbm, ⟨22, _⟩ => ⟨S1024x1024, .i32⟩
  | .hbm, ⟨23, _⟩ => ⟨S1024x1024, .i32⟩
  | .hbm, ⟨24, _⟩ => ⟨S_, .i32⟩
  | .hbm, ⟨25, _⟩ => ⟨S1024x1024, .i32⟩
  | .hbm, ⟨26, _⟩ => ⟨S1024x1024, .i32⟩
  | .hbm, ⟨27, _⟩ => ⟨S1024x1024, .i1⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S1024x1024, .f32⟩
  | .hbm, ⟨35, _⟩ => ⟨S1024x128, .f32⟩
  | .hbm, ⟨36, _⟩ => ⟨S1024x128, .f32⟩
  | .hbm, ⟨37, _⟩ => ⟨S1x128, .f32⟩
  | .hbm, ⟨38, _⟩ => ⟨S1024x128, .f32⟩
  | .hbm, ⟨39, _⟩ => ⟨S1024x128, .f32⟩
  | .hbm, ⟨40, _⟩ => ⟨S128x1, .f32⟩
  | .hbm, ⟨41, _⟩ => ⟨S1024x1, .f32⟩
  | .hbm, ⟨42, _⟩ => ⟨S1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x4096, .f32⟩
  | .hbm, ⟨48, _⟩ => ⟨S4096x4096, .i32⟩
  | .hbm, ⟨49, _⟩ => ⟨S4096x4096, .i32⟩
  | .hbm, ⟨50, _⟩ => ⟨S_, .i32⟩
  | .hbm, ⟨51, _⟩ => ⟨S4096x4096, .i32⟩
  | .hbm, ⟨52, _⟩ => ⟨S4096x4096, .i32⟩
  | .hbm, ⟨53, _⟩ => ⟨S4096x4096, .i1⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S4096x16, .f32⟩
  | .hbm, ⟨62, _⟩ => ⟨S4096x16, .f32⟩
  | .hbm, ⟨63, _⟩ => ⟨S1x16, .f32⟩
  | .hbm, ⟨64, _⟩ => ⟨S4096x16, .f32⟩
  | .hbm, ⟨65, _⟩ => ⟨S4096x16, .f32⟩
  | .hbm, ⟨66, _⟩ => ⟨S16x1, .f32⟩
  | .hbm, ⟨67, _⟩ => ⟨S4096x1, .f32⟩
  | .hbm, ⟨68, _⟩ => ⟨S4096, .f32⟩
  | .hbm, ⟨69, _⟩ => ⟨S1x4096, .f32⟩
  | .hbm, ⟨70, _⟩ => ⟨S1024x4096, .f32⟩
  | .hbm, ⟨71, _⟩ => ⟨S1024x4096, .f32⟩
  | .hbm, ⟨72, _⟩ => ⟨S4096x1024, .f32⟩
  | .hbm, ⟨73, _⟩ => ⟨S1024x1024, .f32⟩
  | .hbm, ⟨74, _⟩ => ⟨S1024x1024, .i32⟩
  | .hbm, ⟨75, _⟩ => ⟨S1024x1024, .i32⟩
  | .hbm, ⟨76, _⟩ => ⟨S_, .i32⟩
  | .hbm, ⟨77, _⟩ => ⟨S1024x1024, .i32⟩
  | .hbm, ⟨78, _⟩ => ⟨S1024x1024, .i32⟩
  | .hbm, ⟨79, _⟩ => ⟨S1024x1024, .i1⟩
  | .hbm, ⟨80, _⟩ => ⟨S1024x1024, .f32⟩
  | .hbm, ⟨81, _⟩ => ⟨S_, .f32⟩
  | .hbm, ⟨82, _⟩ => ⟨S1024x1024, .f32⟩
  | .hbm, ⟨83, _⟩ => ⟨S1024x1024, .f32⟩
  | .hbm, ⟨84, _⟩ => ⟨S1024x1024, .f32⟩
  | .hbm, ⟨85, _⟩ => ⟨S1024x1024, .f32⟩
  | .hbm, ⟨86, _⟩ => ⟨S1024x1024, .f32⟩
  | .hbm, ⟨87, _⟩ => ⟨S1024x128, .f32⟩
  | .hbm, ⟨88, _⟩ => ⟨S1024x128, .f32⟩
  | .hbm, ⟨89, _⟩ => ⟨S1x128, .f32⟩
  | .hbm, ⟨90, _⟩ => ⟨S1024x128, .f32⟩
  | .hbm, ⟨91, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_2 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_3 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩

abbrev nD : Nat := 1
abbrev τ : Topo := Topo.v7x

variable {F : FTy → Type} [FloatOps F]

class Facts₀ : Prop where
  transposes_S1x16_S16x1_1_0 : S1x16.Transposes [1, 0] S16x1
  shapeCasts_S4096x1_S4096 : S4096x1.ShapeCasts S4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  transposes_S1024x4096_S4096x1024_1_0 : S1024x4096.Transposes [1, 0] S4096x1024
  bcast_S_S1024x1024 : S_.BroadcastsInDim S1024x1024 (![] : Fin 0 → Fin S1024x1024.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  transposes_S1x128_S128x1_1_0 : S1x128.Transposes [1, 0] S128x1
  shapeCasts_S1024x1_S1024 : S1024x1.ShapeCasts S1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x4096 : S_.BroadcastsInDim S4096x4096 (![] : Fin 0 → Fin S4096x4096.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  dot_S4096x16_S16x1_S4096x1_1_0_0_1_n_n_wf : DotDims.WF S4096x16 S16x1 S4096x1 [1] [0] [0] [1] [] []
  dot_S1024x4096_S4096x1024_S1024x1024_1_0_0_1_n_n_wf : DotDims.WF S1024x4096 S4096x1024 S1024x1024 [1] [0] [0] [1] [] []
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  dot_S1024x128_S128x1_S1024x1_1_0_0_1_n_n_wf : DotDims.WF S1024x128 S128x1 S1024x1 [1] [0] [0] [1] [] []
  dot_S4096x1024_S1024x4096_S4096x4096_1_0_0_1_n_n_wf : DotDims.WF S4096x1024 S1024x4096 S4096x4096 [1] [0] [0] [1] [] []
  dot_S4096x16_S16x16_S4096x16_1_0_0_1_n_n_wf : DotDims.WF S4096x16 S16x16 S4096x16 [1] [0] [0] [1] [] []
  dot_S4096x4096_S4096x16_S4096x16_1_0_0_1_n_n_wf : DotDims.WF S4096x4096 S4096x16 S4096x16 [1] [0] [0] [1] [] []

variable [Facts₀]

def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf

class Facts : Prop extends Facts₀ where

variable [Facts]
-- ==== Proof.GraphLayers.lean ====
/-
  What the three stacked graph-convolution layers compute, as functions on the extended reals.

  A NODE layer takes node features `Hv` (1024 × 128), edge features `He` (4096 × 16), the node adjacency `adj`
  (1024 × 1024), the incidence matrix `T` (1024 × 4096), a weight `W`, a bias `b` and a gate row `p`. With the edge gate
  `d e = Σ_f He(e,f) · p(0,f)`, the multiplier is `(T · diag d · Tᵀ)(r,c) = Σ_e (T(r,e) · d e) · T(c,e)`, its diagonal is
  replaced by `1`, it is multiplied entrywise by `adj`, and the layer is
      out(r,j) = Σ_c (mask(r,c) · adj(r,c)) · (Σ_k Hv(c,k) · W(k,j)) + b j.
  An EDGE layer is the same with the roles exchanged: the gate is over the nodes, `d v = Σ_f Hv(v,f) · p(0,f)`, and the
  multiplier is `(Tᵀ · diag d · T)(r,c) = Σ_v (T(v,r) · d v) · T(v,c)` over the 4096 edges.

  The whole network is node layer, edge layer (on the new node features and the old edge features), node layer (on the same
  node features and the new edge features).

  Two ways of writing the masked multiplier meet here: a selection (`1` where the column is the row, the multiplier
  elsewhere) and the arithmetic form `eye + (1 - eye) · x` with `eye` the 0/1 indicator of the diagonal. They are the same
  extended real for EVERY `x`, infinite ones included: on the diagonal `1 + (1 - 1) · x = 1 + 0 · x = 1` because `0 · x = 0`
  on the extended reals, and off it `0 + (1 - 0) · x = x`. No finiteness is needed.
-/
import Idealize.ShloMosaic.PureOps.Ideal
import Idealize.ShloMosaic.Lib.ValueIdx

noncomputable section

open scoped BigOperators

namespace Cert.GraphLayers

open Idealize.ShloMosaic Idealize.ShloMosaic.ValueIdx

/-- An `a × b` array of extended reals, indexed as the printed programs index their rank-2 buffers. -/
abbrev Mat (a b : Nat) : Type := (⟨2, ![a, b]⟩ : Shape).Idx → EReal
/-- A length-`a` array of extended reals. -/
abbrev Vct (a : Nat) : Type := (⟨1, ![a]⟩ : Shape).Idx → EReal

/-- The gate of row `e`: the row of `H` against the single row of `p`. -/
def gate {n f : Nat} (H : Mat n f) (p : Mat 1 f) (e : Fin n) : EReal :=
  ∑ k : Fin f, H (ix2 e k) * p (ix2 (0 : Fin 1) k)

/-- The node layer's multiplier `T · diag d · Tᵀ` at row `r`, column `c`. -/
def nodeMult (He : Mat 4096 16) (T : Mat 1024 4096) (p : Mat 1 16) (r c : Fin 1024) : EReal :=
  ∑ e : Fin 4096, (T (ix2 r e) * gate He p e) * T (ix2 c e)

/-- The edge layer's multiplier `Tᵀ · diag d · T` at row `r`, column `c`. -/
def edgeMult (Hv : Mat 1024 128) (T : Mat 1024 4096) (p : Mat 1 128) (r c : Fin 4096) : EReal :=
  ∑ v : Fin 1024, (T (ix2 v r) * gate Hv p v) * T (ix2 v c)

/-- The node layer at row `r`, column `j`. -/
def nodeAt (Hv : Mat 1024 128) (He : Mat 4096 16) (adj : Mat 1024 1024) (T : Mat 1024 4096) (W : Mat 128 128)
    (b : Vct 128) (p : Mat 1 16) (r : Fin 1024) (j : Fin 128) : EReal :=
  (∑ c : Fin 1024, ((if c = r then (1 : EReal) else nodeMult He T p r c) * adj (ix2 r c))
      * (∑ k : Fin 128, Hv (ix2 c k) * W (ix2 k j))) + b (ix1 j)

/-- The edge layer at row `r`, column `j`. -/
def edgeAt (Hv : Mat 1024 128) (He : Mat 4096 16) (adj : Mat 4096 4096) (T : Mat 1024 4096) (W : Mat 16 16)
    (b : Vct 16) (p : Mat 1 128) (r : Fin 4096) (j : Fin 16) : EReal :=
  (∑ c : Fin 4096, ((if c = r then (1 : EReal) else edgeMult Hv T p r c) * adj (ix2 r c))
      * (∑ k : Fin 16, He (ix2 c k) * W (ix2 k j))) + b (ix1 j)

/-- The node layer as a whole array. -/
def nodeLayer (Hv : Mat 1024 128) (He : Mat 4096 16) (adj : Mat 1024 1024) (T : Mat 1024 4096) (W : Mat 128 128)
    (b : Vct 128) (p : Mat 1 16) : Mat 1024 128 :=
  fun i => nodeAt Hv He adj T W b p ⟨(i 0).val, idx2_lt0 i⟩ ⟨(i 1).val, idx2_lt1 i⟩

/-- The edge layer as a whole array. -/
def edgeLayer (Hv : Mat 1024 128) (He : Mat 4096 16) (adj : Mat 4096 4096) (T : Mat 1024 4096) (W : Mat 16 16)
    (b : Vct 16) (p : Mat 1 128) : Mat 4096 16 :=
  fun i => edgeAt Hv He adj T W b p ⟨(i 0).val, idx2_lt0 i⟩ ⟨(i 1).val, idx2_lt1 i⟩

theorem nodeLayer_ix2 (Hv : Mat 1024 128) (He : Mat 4096 16) (adj : Mat 1024 1024) (T : Mat 1024 4096) (W : Mat 128 128)
    (b : Vct 128) (p : Mat 1 16) (r : Fin 1024) (j : Fin 128) :
    nodeLayer Hv He adj T W b p (ix2 r j) = nodeAt Hv He adj T W b p r j := rfl

theorem edgeLayer_ix2 (Hv : Mat 1024 128) (He : Mat 4096 16) (adj : Mat 4096 4096) (T : Mat 1024 4096) (W : Mat 16 16)
    (b : Vct 16) (p : Mat 1 128) (r : Fin 4096) (j : Fin 16) :
    edgeLayer Hv He adj T W b p (ix2 r j) = edgeAt Hv He adj T W b p r j := rfl

/-- The three layers stacked: node, edge, node. -/
def network (X : Mat 1024 128) (Z : Mat 4096 16) (adjE : Mat 4096 4096) (adjV : Mat 1024 1024) (T : Mat 1024 4096)
    (W1 : Mat 128 128) (b1 : Vct 128) (p1 : Mat 1 16) (W2 : Mat 16 16) (b2 : Vct 16) (p2 : Mat 1 128)
    (W3 : Mat 128 128) (b3 : Vct 128) (p3 : Mat 1 16) : Mat 1024 128 :=
  nodeLayer (nodeLayer X Z adjV T W1 b1 p1) (edgeLayer (nodeLayer X Z adjV T W1 b1 p1) Z adjE T W2 b2 p2) adjV T W3 b3 p3

/-! ## The masked multiplier, written arithmetically -/

/-- On the diagonal: `1 + (1 - 1) · x = 1` for every extended real `x`, since `0 · x = 0` there. -/
theorem mask_diag (x : EReal) : (1 : EReal) + ((1 : EReal) - 1) * x = 1 := by
  have h : (1 : EReal) - 1 = 0 := by
    have : ((1 : ℝ) : EReal) - ((1 : ℝ) : EReal) = ((0 : ℝ) : EReal) := by rw [← EReal.coe_sub, sub_self]
    simpa using this
  rw [h, zero_mul, add_zero]

/-- Off the diagonal: `0 + (1 - 0) · x = x`. -/
theorem mask_off (x : EReal) : (0 : EReal) + ((1 : EReal) - 0) * x = x := by
  rw [sub_zero, one_mul, zero_add]

/-- The arithmetic form of the mask is the selection, whatever the multiplier. -/
theorem mask_arith (P : Prop) [Decidable P] (x : EReal) :
    (if P then (1 : EReal) else 0) + ((1 : EReal) - (if P then (1 : EReal) else 0)) * x = if P then 1 else x := by
  by_cases h : P
  · simp only [if_pos h]; exact mask_diag x
  · simp only [if_neg h]; exact mask_off x

end Cert.GraphLayers

end
-- ==== Proof.KernelLayers.lean ====
/-
  The layers as the kernels compute them, one whole-array function per launch.

  A launch reads the incidence matrix through two operands — its rows (or columns) in single precision, and a second
  copy of the whole matrix converted to half precision on the host — and its bias as a one-row matrix (the vector
  reshaped on the host). As extended reals a format conversion changes nothing, so the second copy IS the matrix,
  and the reshaped row read at `(0, j)` is the vector at `j`: with those two identifications the functions below are
  the layers of the specification.

  The kernels compare integer positions (`c.val = r.val`); two positions below the extent are equal exactly when
  their values are.
-/
import proofs.«121829_g36584531428114_cont_8to1_b_754_6_alg».proof.Proof.GraphLayers

noncomputable section

open scoped BigOperators

namespace Cert.GraphLayers

open Idealize.ShloMosaic Idealize.ShloMosaic.ValueIdx

/-- The node kernel's value at row `R`, column `j`: incidence rows `T`, the converted copy `Tb`, bias row `brow`. -/
def nodeKAt (Hv : Mat 1024 128) (He : Mat 4096 16) (adj : Mat 1024 1024) (T Tb : Mat 1024 4096) (W : Mat 128 128)
    (brow : Mat 1 128) (p : Mat 1 16) (R : Fin 1024) (j : Fin 128) : EReal :=
  (∑ c : Fin 1024, ((if c.val = R.val then (1 : EReal) else ∑ e : Fin 4096, (T (ix2 R e) * gate He p e) * Tb (ix2 c e))
        * adj (ix2 R c)) * (∑ k : Fin 128, Hv (ix2 c k) * W (ix2 k j))) + brow (ix2 (0 : Fin 1) j)

/-- The edge kernel's value at row `R`, column `j`. -/
def edgeKAt (Hv : Mat 1024 128) (He : Mat 4096 16) (adj : Mat 4096 4096) (T Tb : Mat 1024 4096) (W : Mat 16 16)
    (brow : Mat 1 16) (p : Mat 1 128) (R : Fin 4096) (j : Fin 16) : EReal :=
  (∑ c : Fin 4096, ((if c.val = R.val then (1 : EReal) else ∑ v : Fin 1024, (T (ix2 v R) * gate Hv p v) * Tb (ix2 v c))
        * adj (ix2 R c)) * (∑ k : Fin 16, He (ix2 c k) * W (ix2 k j))) + brow (ix2 (0 : Fin 1) j)

/-- The node kernel's result array. -/
def nodeK (Hv : Mat 1024 128) (He : Mat 4096 16) (adj : Mat 1024 1024) (T Tb : Mat 1024 4096) (W : Mat 128 128)
    (brow : Mat 1 128) (p : Mat 1 16) : Mat 1024 128 :=
  fun i => nodeKAt Hv He adj T Tb W brow p ⟨(i 0).val, idx2_lt0 i⟩ ⟨(i 1).val, idx2_lt1 i⟩

/-- The edge kernel's result array. -/
def edgeK (Hv : Mat 1024 128) (He : Mat 4096 16) (adj : Mat 4096 4096) (T Tb : Mat 1024 4096) (W : Mat 16 16)
    (brow : Mat 1 16) (p : Mat 1 128) : Mat 4096 16 :=
  fun i => edgeKAt Hv He adj T Tb W brow p ⟨(i 0).val, idx2_lt0 i⟩ ⟨(i 1).val, idx2_lt1 i⟩

/-- A vector as the one-row matrix the host's reshape makes of it. -/
def asRow {n : Nat} (b : Vct n) : Mat 1 n := fun i => b (ix1 ⟨(i 1).val, idx2_lt1 i⟩)

theorem asRow_apply {n : Nat} (b : Vct n) (j : Fin n) : asRow b (ix2 (0 : Fin 1) j) = b (ix1 j) := rfl

/-- With the converted copy identified with the matrix and the bias row with the vector, the node kernel's array is
    the specification's node layer. -/
theorem nodeK_eq (Hv : Mat 1024 128) (He : Mat 4096 16) (adj : Mat 1024 1024) (T : Mat 1024 4096) (W : Mat 128 128)
    (b : Vct 128) (p : Mat 1 16) : nodeK Hv He adj T T W (asRow b) p = nodeLayer Hv He adj T W b p := by
  funext i
  unfold nodeK nodeLayer nodeKAt nodeAt nodeMult
  rw [asRow_apply]
  congr 1
  refine Finset.sum_congr rfl fun c _ => ?_
  congr 2
  exact if_congr Fin.val_inj rfl rfl

/-- The same for the edge kernel. -/
theorem edgeK_eq (Hv : Mat 1024 128) (He : Mat 4096 16) (adj : Mat 4096 4096) (T : Mat 1024 4096) (W : Mat 16 16)
    (b : Vct 16) (p : Mat 1 128) : edgeK Hv He adj T T W (asRow b) p = edgeLayer Hv He adj T W b p := by
  funext i
  unfold edgeK edgeLayer edgeKAt edgeAt edgeMult
  rw [asRow_apply]
  congr 1
  refine Finset.sum_congr rfl fun c _ => ?_
  congr 2
  exact if_congr Fin.val_inj rfl rfl

end Cert.GraphLayers

end
-- ==== Proof.KernelPayloads.lean ====
/-
  The three kernel bodies' stored values read at one element, at the ideal (extended real) values.

  Each body computes, on a block of 256 rows, a gate (a row of features against one row of weights, summed over the
  features), a multiplier (the incidence matrix scaled by the gate, against the incidence matrix again), puts 1 on the
  global diagonal (column = local row + 256 * block number), multiplies entrywise by the adjacency block, and applies
  the result to the features times the weight, plus the bias row. At the ideal values the format changes are the
  identity and a matrix product into a zero accumulator is the plain sum over the contracted coordinate, so each
  element of what is stored is a finite sum of products of the inputs' elements.
-/
import proofs.«121829_g36584531428114_cont_8to1_b_754_6_alg».proof.Proof.Gen.KernelIdeal.Skeleton
import proofs.«121829_g36584531428114_cont_8to1_b_754_6_alg».proof.Proof.GraphLayers
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.Affine

noncomputable section

open scoped BigOperators

namespace Cert.KernelIdeal.Payloads

open Cert.KernelIdeal Cert.KernelIdeal.Gen Cert.GraphLayers Idealize.ShloMosaic Idealize.ShloMosaic.ValueIdx Idealize.SL.Sem

/-! ## A matrix product into the zero accumulator, read at an element

Three layouts occur: rows against columns (`[M, K] · [K, N]`), rows against rows (`[M, K] · [N, K]ᵀ`) and columns
against columns (`[K, M]ᵀ · [K, N]`). In each, the dimension numbers' record `D` is a parameter and the facts about its
lists are hypotheses, decided at the call on the record's literal lists. -/

/-- A one-axis contraction index re-indexed by its coordinate: the sum over the contraction index is the sum over `Fin n`. -/
theorem sum_contr1 {sl sr so : Shape} (D : DotDims sl sr so) (n : Nat) (hr : D.contr.rank = 1)
    (hs : D.contr.size ⟨0, by omega⟩ = n) (f : D.contr.Idx → EReal) :
    ∑ q : D.contr.Idx, f q = ∑ k : Fin n, f ((contrEquiv1 D n hr hs).symm k) :=
  (Equiv.sum_comp (contrEquiv1 D n hr hs).symm f).symm

/-- On a kept (non-contracting, non-batch) axis of the left operand the operand index reads the result index. -/
theorem lhsIdx_val_kept {sl sr so : Shape} (d : DotDims sl sr so) (a : Fin sl.rank) (hb : a ∉ d.lhsBatch)
    (hn : a ∈ d.lhsNonContracting) (j : so.Idx) (k : d.contr.Idx) (p : Fin so.rank)
    (hp : p.val = d.lhsBatch.length + d.lhsNonContracting.idxOf a) : (d.lhsIdx j k a).val = (j p).val := by
  unfold DotDims.lhsIdx
  rw [dif_neg hb, dif_pos hn]
  simp only [Fin.val_cast]
  exact congrArg (fun q => (j q).val) (Fin.ext hp.symm)

/-- On a kept axis of the right operand the operand index reads the result index. -/
theorem rhsIdx_val_kept {sl sr so : Shape} (d : DotDims sl sr so) (a : Fin sr.rank) (hb : a ∉ d.rhsBatch)
    (hn : a ∈ d.rhsNonContracting) (j : so.Idx) (k : d.contr.Idx) (p : Fin so.rank)
    (hp : p.val = d.lhsBatch.length + d.lhsNonContracting.length + d.rhsNonContracting.idxOf a) :
    (d.rhsIdx j k a).val = (j p).val := by
  unfold DotDims.rhsIdx
  rw [dif_neg hb, dif_pos hn]
  simp only [Fin.val_cast]
  exact congrArg (fun q => (j q).val) (Fin.ext hp.symm)

/-- Rows against columns: `[M, K] · [K, N]` at `(r, c)` is the sum over `k` of `lhs (r, k) * rhs (k, c)`. -/
theorem mm_rows_cols {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hlb : (0 : Fin 2) ∉ D.lhsBatch) (hln : (0 : Fin 2) ∈ D.lhsNonContracting)
    (hlp : 0 = D.lhsBatch.length + D.lhsNonContracting.idxOf (0 : Fin 2))
    (hrb : (1 : Fin 2) ∉ D.rhsBatch) (hrn : (1 : Fin 2) ∈ D.rhsNonContracting)
    (hrp : 1 = D.lhsBatch.length + D.lhsNonContracting.length + D.rhsNonContracting.idxOf (1 : Fin 2))
    (lhs : FVec Ideal ⟨2, ![M, K]⟩ φ₁) (rhs : FVec Ideal ⟨2, ![K, N]⟩ φ₂) (r : Fin M) (c : Fin N) :
    matmul D none lhs rhs (constant (F := Ideal) ⟨2, ![M, N]⟩ .f32 0x00000000#32) (ix2 r c)
      = ∑ k : Fin K, lhs (ix2 r k) * rhs (ix2 k c) := by
  refine (Ideal.matmul_constant_zero_apply D none lhs rhs (ix2 r c)).trans ?_
  refine (sum_contr1 D K hr hs _).trans ?_
  refine Finset.sum_congr rfl fun k _ => ?_
  have hk := contrEquiv1_symm_val D K hr hs k
  have el : D.lhsIdx (ix2 r c) ((contrEquiv1 D K hr hs).symm k) = ix2 r k :=
    funext fun a => Fin.ext (by
      match a with
      | ⟨0, _⟩ => exact lhsIdx_val_kept D 0 hlb hln _ _ 0 hlp
      | ⟨1, _⟩ => exact (D.lhsIdx_val_of_single hlc _ _).trans hk)
  have er : D.rhsIdx (ix2 r c) ((contrEquiv1 D K hr hs).symm k) = ix2 k c :=
    funext fun a => Fin.ext (by
      match a with
      | ⟨0, _⟩ => exact (D.rhsIdx_val_of_single hrc _ _).trans hk
      | ⟨1, _⟩ => exact rhsIdx_val_kept D 1 hrb hrn _ _ 1 hrp)
  rw [el, er]

/-- Rows against rows: `[M, K] · [N, K]ᵀ` at `(r, c)` is the sum over `k` of `lhs (r, k) * rhs (c, k)`. -/
theorem mm_rows_rows {M K N : Nat} {φ₁ φ₂ : FTy} (D : DotDims ⟨2, ![M, K]⟩ ⟨2, ![N, K]⟩ ⟨2, ![M, N]⟩)
    (hr : D.contr.rank = 1) (hs : D.contr.size ⟨0, by omega⟩ = K)
    (hlc : D.lhsContracting = [1]) (hrc : D.rhsContracting = [1])
    (hlb : (0 : Fin 2) ∉ D.lhsBatch) (hln : (0 : Fin 2) ∈ D.lhsNonContracting)
    (hlp : 0 = D.lhsBatch.length + D.lhsNonContracting.idxOf (0 : Fin 2))
    (hrb : (0 : Fin 2) ∉ D.rhsBatch) (hrn : (0 : Fin 2) ∈ D.rhsNonContracting)
    (hrp : 1 = D.lhsBatch.length + D.lhsNonContracting.length + D.rhsNonContracting.idxOf (0 : Fin 2))
    (lhs : FVec Ideal ⟨2, ![M, K]⟩ φ₁) (rhs : FVec Ideal ⟨2, ![N, K]⟩ φ₂) (r : Fin M) (c : Fin N) :
    matmul D none lhs rhs (constant (F := Ideal) ⟨2, ![M, N]⟩ .f32 0x00000000#32) (ix2 r c)
      = ∑ k : Fin K, lhs (ix2 r k) * rhs (ix2 c k) := by
  refine (Ideal.matmul_constant_zero_apply D none lhs rhs (ix2 r c)).trans ?_
  refine (sum_contr1 D K hr hs _).trans ?_
  refine Finset.sum_congr rfl fun k _ => ?_
  have hk := contrEquiv1_symm_val D K hr hs k
  have el : D.lhsIdx (ix2 r c) ((contrEquiv1 D K hr hs).symm k) = ix2 r k :=
    funext fun a => Fin.ext (by
      match a with
      | ⟨0, _⟩ => exact lhsIdx_val_kept D 0 hlb hln _ _ 0 hlp
      | ⟨1, _⟩ => exact (D.lhsIdx_val_of_single hlc _ _).trans hk)
  have er : D.rhsIdx (ix2 r c) ((contrEquiv1 D K hr hs).symm k) = ix2 c k :=
    funext fun a => Fin.ext (by
      match a with
      | ⟨0, _⟩ => exact rhsIdx_val_kept D 0 hrb hrn _ _ 1 hrp
      | ⟨1, _⟩ => exact (D.rhsIdx_val_of_single hrc _ _).trans hk)
  rw [el, er]

/-- Columns against columns: `[K, M]ᵀ · [K, N]` at `(r, c)` is the sum over `k` of `lhs (k, r) * rhs (k, c)`. -/
theorem mm_cols_cols {M K N : Nat} {φ₁ φ₂ : FTy} (D : DotDims ⟨2, ![K, M]⟩ ⟨2, ![K, N]⟩ ⟨2, ![M, N]⟩)
    (hr : D.contr.rank = 1) (hs : D.contr.size ⟨0, by omega⟩ = K)
    (hlc : D.lhsContracting = [0]) (hrc : D.rhsContracting = [0])
    (hlb : (1 : Fin 2) ∉ D.lhsBatch) (hln : (1 : Fin 2) ∈ D.lhsNonContracting)
    (hlp : 0 = D.lhsBatch.length + D.lhsNonContracting.idxOf (1 : Fin 2))
    (hrb : (1 : Fin 2) ∉ D.rhsBatch) (hrn : (1 : Fin 2) ∈ D.rhsNonContracting)
    (hrp : 1 = D.lhsBatch.length + D.lhsNonContracting.length + D.rhsNonContracting.idxOf (1 : Fin 2))
    (lhs : FVec Ideal ⟨2, ![K, M]⟩ φ₁) (rhs : FVec Ideal ⟨2, ![K, N]⟩ φ₂) (r : Fin M) (c : Fin N) :
    matmul D none lhs rhs (constant (F := Ideal) ⟨2, ![M, N]⟩ .f32 0x00000000#32) (ix2 r c)
      = ∑ k : Fin K, lhs (ix2 k r) * rhs (ix2 k c) := by
  refine (Ideal.matmul_constant_zero_apply D none lhs rhs (ix2 r c)).trans ?_
  refine (sum_contr1 D K hr hs _).trans ?_
  refine Finset.sum_congr rfl fun k _ => ?_
  have hk := contrEquiv1_symm_val D K hr hs k
  have el : D.lhsIdx (ix2 r c) ((contrEquiv1 D K hr hs).symm k) = ix2 k r :=
    funext fun a => Fin.ext (by
      match a with
      | ⟨0, _⟩ => exact (D.lhsIdx_val_of_single hlc _ _).trans hk
      | ⟨1, _⟩ => exact lhsIdx_val_kept D 1 hlb hln _ _ 0 hlp)
  have er : D.rhsIdx (ix2 r c) ((contrEquiv1 D K hr hs).symm k) = ix2 k c :=
    funext fun a => Fin.ext (by
      match a with
      | ⟨0, _⟩ => exact (D.rhsIdx_val_of_single hrc _ _).trans hk
      | ⟨1, _⟩ => exact rhsIdx_val_kept D 1 hrb hrn _ _ 1 hrp)
  rw [el, er]

/-- The node kernels' multiplier product. -/
theorem mm_node_mult (lhs : FVec Ideal S256x4096 .bf16) (rhs : FVec Ideal S1024x4096 .bf16) (r : Fin 256) (c : Fin 1024) :
    matmul dot_S256x4096_S1024x4096_S256x1024_1_1_0_0_n_n none lhs rhs (constant (F := Ideal) S256x1024 .f32 0x00000000#32) (ix2 r c)
      = ∑ k : Fin 4096, lhs (ix2 r k) * rhs (ix2 c k) :=
  mm_rows_rows dot_S256x4096_S1024x4096_S256x1024_1_1_0_0_n_n rfl rfl rfl rfl (by decide) (by decide) (by decide) (by decide)
    (by decide) (by decide) lhs rhs r c

/-- The node kernels' features times weight. -/
theorem mm_node_feat (lhs : FVec Ideal S1024x128 .bf16) (rhs : FVec Ideal S128x128 .bf16) (r : Fin 1024) (c : Fin 128) :
    matmul dot_S1024x128_S128x128_S1024x128_1_0_0_1_n_n none lhs rhs (constant (F := Ideal) S1024x128 .f32 0x00000000#32) (ix2 r c)
      = ∑ k : Fin 128, lhs (ix2 r k) * rhs (ix2 k c) :=
  mm_rows_cols dot_S1024x128_S128x128_S1024x128_1_0_0_1_n_n rfl rfl rfl rfl (by decide) (by decide) (by decide) (by decide)
    (by decide) (by decide) lhs rhs r c

/-- The node kernels' last product. -/
theorem mm_node_out (lhs : FVec Ideal S256x1024 .bf16) (rhs : FVec Ideal S1024x128 .bf16) (r : Fin 256) (c : Fin 128) :
    matmul dot_S256x1024_S1024x128_S256x128_1_0_0_1_n_n none lhs rhs (constant (F := Ideal) S256x128 .f32 0x00000000#32) (ix2 r c)
      = ∑ k : Fin 1024, lhs (ix2 r k) * rhs (ix2 k c) :=
  mm_rows_cols dot_S256x1024_S1024x128_S256x128_1_0_0_1_n_n rfl rfl rfl rfl (by decide) (by decide) (by decide) (by decide)
    (by decide) (by decide) lhs rhs r c

/-- The edge kernel's multiplier product. -/
theorem mm_edge_mult (lhs : FVec Ideal S1024x256 .bf16) (rhs : FVec Ideal S1024x4096 .bf16) (r : Fin 256) (c : Fin 4096) :
    matmul dot_S1024x256_S1024x4096_S256x4096_0_0_1_1_n_n none lhs rhs (constant (F := Ideal) S256x4096 .f32 0x00000000#32) (ix2 r c)
      = ∑ k : Fin 1024, lhs (ix2 k r) * rhs (ix2 k c) :=
  mm_cols_cols dot_S1024x256_S1024x4096_S256x4096_0_0_1_1_n_n rfl rfl rfl rfl (by decide) (by decide) (by decide) (by decide)
    (by decide) (by decide) lhs rhs r c

/-- The edge kernel's features times weight. -/
theorem mm_edge_feat (lhs : FVec Ideal S4096x16 .bf16) (rhs : FVec Ideal S16x16 .bf16) (r : Fin 4096) (c : Fin 16) :
    matmul dot_S4096x16_S16x16_S4096x16_1_0_0_1_n_n none lhs rhs (constant (F := Ideal) S4096x16 .f32 0x00000000#32) (ix2 r c)
      = ∑ k : Fin 16, lhs (ix2 r k) * rhs (ix2 k c) :=
  mm_rows_cols dot_S4096x16_S16x16_S4096x16_1_0_0_1_n_n rfl rfl rfl rfl (by decide) (by decide) (by decide) (by decide)
    (by decide) (by decide) lhs rhs r c

/-- The edge kernel's last product. -/
theorem mm_edge_out (lhs : FVec Ideal S256x4096 .bf16) (rhs : FVec Ideal S4096x16 .bf16) (r : Fin 256) (c : Fin 16) :
    matmul dot_S256x4096_S4096x16_S256x16_1_0_0_1_n_n none lhs rhs (constant (F := Ideal) S256x16 .f32 0x00000000#32) (ix2 r c)
      = ∑ k : Fin 4096, lhs (ix2 r k) * rhs (ix2 k c) :=
  mm_rows_cols dot_S256x4096_S4096x16_S256x16_1_0_0_1_n_n rfl rfl rfl rfl (by decide) (by decide) (by decide) (by decide)
    (by decide) (by decide) lhs rhs r c

/-! ## A column of per-row values broadcast along the rows -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The gate: a lane sum of the features against one broadcast row -/

/-- The sum along the rows of a feature matrix times one row broadcast over it is the gate of each row. -/
theorem gate_apply {n f : Nat} (H : FVec Ideal ⟨2, ![n, f]⟩ .f32) (p : FVec Ideal ⟨2, ![1, f]⟩ .f32)
    (hb : (⟨2, ![1, f]⟩ : Shape).Broadcasts ⟨2, ![n, f]⟩) (hred : (⟨2, ![n, f]⟩ : Shape).Reduces [1] ⟨1, ![n]⟩)
    (hφ : FKind.Formats .f32) (hacc : (0x00000000#32 : BitVec 32) = FKind.add.neutral .f32 hφ) (e : Fin n) :
    multiReduction (F := Ideal) .add [1] ⟨1, ![n]⟩ (mulf H (broadcastTo ⟨2, ![n, f]⟩ p hb)) 0x00000000#32 hred hφ hacc (ix1 e)
      = gate H p e := by
  refine (Ideal.multiReduction_add_single _ _ hred hφ hacc (ix1 e)).trans ?_
  unfold gate
  refine Finset.sum_congr rfl fun k _ => ?_
  have hl : hred.lift (ix1 e) k = ix2 e k :=
    funext fun a => Fin.ext (by
      match a with
      | ⟨0, _⟩ => rfl
      | ⟨1, _⟩ => rfl)
  rw [hl]
  exact congrArg (H (ix2 e k) * ·) (broadcastTo_1b_ab_apply p hb e k)

/-! ## The diagonal test -/

/-- Column `c` against local row `r` plus 256 times the block number, compared as 32-bit words: nothing wraps, so the
    comparison is the comparison of the naturals. -/
theorem diag_cmpi (c r i : Nat) (hc : c < 4096) (hr : r < 256) (hi : i < 16) :
    IntOp.cmpi .eq (BitVec.ofNat 32 c) (IntOp.addi (BitVec.ofNat 32 r) (Scalar.muli (BitVec.ofNat 32 i) 256#32))
      = if c = r + i * 256 then 1#1 else 0#1 := by
  have hsum : IntOp.addi (BitVec.ofNat 32 r) (Scalar.muli (BitVec.ofNat 32 i) 256#32) = BitVec.ofNat 32 (r + i * 256) := by
    unfold IntOp.addi Scalar.muli IntOp.muli
    rw [show (256#32 : BitVec 32) = BitVec.ofNat 32 256 from rfl, ← BitVec.ofNat_mul, ← BitVec.ofNat_add]
  rw [hsum]
  by_cases h : c = r + i * 256
  · rw [if_pos h, h]; exact IntOp.cmpi_eq.mpr rfl
  · rw [if_neg h]
    refine eq_zero_of_ne_one fun h1 => h ?_
    have h2 := congrArg BitVec.toNat (IntOp.cmpi_eq.mp h1)
    rw [BitVec.toNat_ofNat, BitVec.toNat_ofNat, Nat.mod_eq_of_lt (by omega), Nat.mod_eq_of_lt (by omega)] at h2
    exact h2

/-- The masked multiplier at an element: 1 on the global diagonal, the multiplier elsewhere. -/
theorem masked_apply {N : Nat} (i : Nat) (hi : i < 16) (hN : N ≤ 4096)
    (h0 : (⟨2, ![256, N]⟩ : Shape).Iotas .tc 32 [0]) (h1 : (⟨2, ![256, N]⟩ : Shape).Iotas .tc 32 [1])
    (M : FVec Ideal ⟨2, ![256, N]⟩ .f32) (r : Fin 256) (c : Fin N) :
    select (cmpi .eq (iota .tc ⟨2, ![256, N]⟩ 32 [1] h1)
        (addi (iota .tc ⟨2, ![256, N]⟩ 32 [0] h0) (broadcast ⟨2, ![256, N]⟩ (Scalar.muli (BitVec.ofNat 32 i) 256#32))))
      (broadcast ⟨2, ![256, N]⟩ (Scalar.ofBits (F := Ideal) .f32 0x3F800000#32)) M (ix2 r c)
      = if c.val = r.val + i * 256 then (1 : EReal) else M (ix2 r c) := by
  refine (select_apply _ _ _ _).trans ?_
  have hbit : cmpi .eq (iota .tc ⟨2, ![256, N]⟩ 32 [1] h1)
        (addi (iota .tc ⟨2, ![256, N]⟩ 32 [0] h0) (broadcast ⟨2, ![256, N]⟩ (Scalar.muli (BitVec.ofNat 32 i) 256#32))) (ix2 r c)
      = if c.val = r.val + i * 256 then 1#1 else 0#1 := by
    show IntOp.cmpi .eq (iota .tc ⟨2, ![256, N]⟩ 32 [1] h1 (ix2 r c))
      (IntOp.addi (iota .tc ⟨2, ![256, N]⟩ 32 [0] h0 (ix2 r c)) (Scalar.muli (BitVec.ofNat 32 i) 256#32)) = _
    rw [iota_single_apply, iota_single_apply]
    exact diag_cmpi c.val r.val i (by have := c.isLt; omega) r.isLt hi
  rw [hbit]
  by_cases h : c.val = r.val + i * 256
  · rw [if_pos h, if_pos h]
    exact (select_one _ _).trans Ideal.ofBits_one_f32
  · rw [if_neg h, if_neg h]
    exact select_zero _ _

/-! ## The three stored values at an element -/

/-- The first node kernel: element `(r, j)` of what grid point `i` stores. -/
theorem node0_at (i : grid0.Coords) (he : Vec Ideal S4096x16 .f32) (p : Vec Ideal S1x16 .f32) (trows : Vec Ideal S256x4096 .f32)
    (tb : Vec Ideal S1024x4096 .bf16) (adj : Vec Ideal S256x1024 .f32) (hv : Vec Ideal S1024x128 .f32)
    (w : Vec Ideal S128x128 .f32) (b : Vec Ideal S1x128 .f32) (r : Fin 256) (j : Fin 128) :
    k0_pay1 (k0_pay2 i he p trows tb adj hv w) (k0_pay3 b) (ix2 r j)
      = (∑ c : Fin 1024, ((if c.val = r.val + (i 0).val * 256 then (1 : EReal)
            else ∑ e : Fin 4096, (trows (ix2 r e) * GraphLayers.gate he p e) * tb (ix2 c e)) * adj (ix2 r c))
          * (∑ k : Fin 128, hv (ix2 c k) * w (ix2 k j))) + b (ix2 (0 : Fin 1) j) := by
  have hi : (i 0).val < 16 := by have h4 : (i 0).val < 4 := (i 0).isLt; omega
  unfold k0_pay1 k0_pay3
  refine (addf_apply _ _ _).trans ?_
  refine congrArg₂ (· + ·) ?_ ?_
  · unfold k0_pay2
    refine (mm_node_out _ _ r j).trans ?_
    refine Finset.sum_congr rfl fun c _ => ?_
    refine congrArg₂ (· * ·) ?_ ?_
    · refine (mulf_apply _ _ _).trans ?_
      refine congrArg (· * adj (ix2 r c)) ?_
      refine (masked_apply (i 0).val hi (by decide) _ _ _ r c).trans ?_
      refine congrArg (fun x => if c.val = r.val + (i 0).val * 256 then (1 : EReal) else x) ?_
      refine (mm_node_mult _ _ r c).trans ?_
      refine Finset.sum_congr rfl fun e _ => ?_
      refine congrArg₂ (· * ·) ?_ ?_
      · refine (mulf_apply _ _ _).trans ?_
        refine congrArg (trows (ix2 r e) * ·) ?_
        refine (broadcastTo_1b_ab_apply _ _ r e).trans ?_
        refine (shapeCast_a_1a_apply _ _ 0 e).trans ?_
        exact gate_apply he p _ _ _ _ e
      · exact congrFun (shapeCast_self tb _) (ix2 c e)
    · exact mm_node_feat _ _ c j
  · refine (broadcastTo_1b_ab_apply _ _ r j).trans ?_
    exact congrFun (shapeCast_self b _) (ix2 (0 : Fin 1) j)

/-- The second node kernel (the third region): the same value, its inputs passed through identity shape casts. -/
theorem node2_at (i : grid2.Coords) (he : Vec Ideal S4096x16 .f32) (p : Vec Ideal S1x16 .f32) (trows : Vec Ideal S256x4096 .f32)
    (tb : Vec Ideal S1024x4096 .bf16) (adj : Vec Ideal S256x1024 .f32) (hv : Vec Ideal S1024x128 .f32)
    (w : Vec Ideal S128x128 .f32) (b : Vec Ideal S1x128 .f32) (r : Fin 256) (j : Fin 128) :
    k2_pay1 (k2_pay2 i he p trows tb adj hv w) b (ix2 r j)
      = (∑ c : Fin 1024, ((if c.val = r.val + (i 0).val * 256 then (1 : EReal)
            else ∑ e : Fin 4096, (trows (ix2 r e) * GraphLayers.gate he p e) * tb (ix2 c e)) * adj (ix2 r c))
          * (∑ k : Fin 128, hv (ix2 c k) * w (ix2 k j))) + b (ix2 (0 : Fin 1) j) := by
  have hi : (i 0).val < 16 := by have h4 : (i 0).val < 4 := (i 0).isLt; omega
  unfold k2_pay1
  refine (addf_apply _ _ _).trans ?_
  refine congrArg₂ (· + ·) ?_ ?_
  · unfold k2_pay2
    rw [shapeCast_self he, shapeCast_self hv]
    refine (mm_node_out _ _ r j).trans ?_
    refine Finset.sum_congr rfl fun c _ => ?_
    refine congrArg₂ (· * ·) ?_ ?_
    · refine (mulf_apply _ _ _).trans ?_
      refine congrArg (· * adj (ix2 r c)) ?_
      refine (masked_apply (i 0).val hi (by decide) _ _ _ r c).trans ?_
      refine congrArg (fun x => if c.val = r.val + (i 0).val * 256 then (1 : EReal) else x) ?_
      refine (mm_node_mult _ _ r c).trans ?_
      refine Finset.sum_congr rfl fun e _ => ?_
      refine congrArg₂ (· * ·) ?_ ?_
      · refine (mulf_apply _ _ _).trans ?_
        refine congrArg (trows (ix2 r e) * ·) ?_
        refine (broadcastTo_1b_ab_apply _ _ r e).trans ?_
        refine (shapeCast_a_1a_apply _ _ 0 e).trans ?_
        exact gate_apply he p _ _ _ _ e
      · exact congrFun (shapeCast_self tb _) (ix2 c e)
    · exact mm_node_feat _ _ c j
  · refine (broadcastTo_1b_ab_apply _ _ r j).trans ?_
    exact congrFun (shapeCast_self b _) (ix2 (0 : Fin 1) j)

/-- The edge kernel: element `(r, j)` of what grid point `i` stores. The gate is over the nodes and enters as a column
    (one value per node, broadcast along the 256 edges of the block); the multiplier contracts over the nodes. -/
theorem edge1_at (i : grid1.Coords) (hv : Vec Ideal S1024x128 .f32) (p : Vec Ideal S1x128 .f32) (tcols : Vec Ideal S1024x256 .f32)
    (tb : Vec Ideal S1024x4096 .bf16) (adj : Vec Ideal S256x4096 .f32) (he : Vec Ideal S4096x16 .f32)
    (w : Vec Ideal S16x16 .f32) (b : Vec Ideal S1x16 .f32) (r : Fin 256) (j : Fin 16) :
    k1_pay1 (k1_pay2 i hv p tcols tb adj he w) b (ix2 r j)
      = (∑ c : Fin 4096, ((if c.val = r.val + (i 0).val * 256 then (1 : EReal)
            else ∑ v : Fin 1024, (tcols (ix2 v r) * GraphLayers.gate hv p v) * tb (ix2 v c)) * adj (ix2 r c))
          * (∑ k : Fin 16, he (ix2 c k) * w (ix2 k j))) + b (ix2 (0 : Fin 1) j) := by
  have hi : (i 0).val < 16 := (i 0).isLt
  unfold k1_pay1
  refine (addf_apply _ _ _).trans ?_
  refine congrArg₂ (· + ·) ?_ ?_
  · unfold k1_pay2
    rw [shapeCast_self hv]
    refine (mm_edge_out _ _ r j).trans ?_
    refine Finset.sum_congr rfl fun c _ => ?_
    refine congrArg₂ (· * ·) ?_ ?_
    · refine (mulf_apply _ _ _).trans ?_
      refine congrArg (· * adj (ix2 r c)) ?_
      refine (masked_apply (i 0).val hi (by decide) _ _ _ r c).trans ?_
      refine congrArg (fun x => if c.val = r.val + (i 0).val * 256 then (1 : EReal) else x) ?_
      refine (mm_edge_mult _ _ r c).trans ?_
      refine Finset.sum_congr rfl fun v _ => ?_
      refine congrArg₂ (· * ·) ?_ ?_
      · refine (mulf_apply _ _ _).trans ?_
        refine congrArg (tcols (ix2 v r) * ·) ?_
        refine (broadcastTo_a1_ab_apply _ _ v r).trans ?_
        refine (shapeCast_a_a1_apply _ _ v 0).trans ?_
        exact gate_apply hv p _ _ _ _ v
      · exact congrFun (shapeCast_self tb _) (ix2 v c)
    · exact mm_edge_feat _ _ c j
  · refine (broadcastTo_1b_ab_apply _ _ r j).trans ?_
    exact congrFun (shapeCast_self b _) (ix2 (0 : Fin 1) j)

end Cert.KernelIdeal.Payloads

end
-- ==== Proof.KernelRegions.lean ====
/-
  Each launch's result array as one function of the buffer contents the launch is entered with.

  A launch runs its kernel body once per grid point `t`. The body reads whole arrays (features, weights, bias row, gate
  row, the converted incidence matrix) and two slabs that move with the point — 256 rows of the adjacency and 256 rows
  (node layers) or 256 columns (edge layer) of the incidence matrix — and stores 256 rows of the result. A slab read at
  local row `r` is its array at row `256 t + r`; the body's diagonal test "column = local row + 256 · (grid coordinate)"
  is therefore "column = global row"; and the stored block is rows `256 t … 256 t + 255` of ONE whole-array function of
  the entry contents (`nodeK` / `edgeK`). The blocks of the points tile the result array, so after the launch the result
  array is that function.

  Everything is stated at arbitrary entry contents `V`: the three launches are entered with different contents (the
  second and third read what the earlier ones wrote), and the same statement serves each.
-/
import proofs.«121829_g36584531428114_cont_8to1_b_754_6_alg».proof.Proof.FrameKernelIdeal
import proofs.«121829_g36584531428114_cont_8to1_b_754_6_alg».proof.Proof.KernelLayers
import Idealize.ShloMosaic.Lib.Pipeline.Value
import Idealize.ShloMosaic.Lib.ValueIdx

set_option maxRecDepth 16384

noncomputable section

open scoped BigOperators

namespace Cert.KernelIdeal.Regions

open Cert.KernelIdeal Cert.KernelIdeal.Gen Cert.KernelIdeal.GenP Cert.GraphLayers
open Idealize.ShloMosaic Idealize.ShloMosaic.TcCoe Idealize.ShloMosaic.ValueIdx Idealize.SL.Sem
open Idealize.ShloMosaic.Pipeline (Dat Cfg Window)

/-- The node kernel's array read at an index whose coordinates are `R` and `J`. -/
theorem nodeK_at (Hv : Mat 1024 128) (He : Mat 4096 16) (adj : Mat 1024 1024) (T Tb : Mat 1024 4096) (W : Mat 128 128)
    (brow : Mat 1 128) (p : Mat 1 16) (i : (⟨2, ![1024, 128]⟩ : Shape).Idx) (R : Fin 1024) (J : Fin 128)
    (h0 : (i 0).val = R.val) (h1 : (i 1).val = J.val) :
    nodeK Hv He adj T Tb W brow p i = nodeKAt Hv He adj T Tb W brow p R J := by
  have e0 : (⟨(i 0).val, idx2_lt0 i⟩ : Fin 1024) = R := Fin.ext h0
  have e1 : (⟨(i 1).val, idx2_lt1 i⟩ : Fin 128) = J := Fin.ext h1
  show nodeKAt Hv He adj T Tb W brow p ⟨(i 0).val, idx2_lt0 i⟩ ⟨(i 1).val, idx2_lt1 i⟩ = _
  rw [e0, e1]

/-- The edge kernel's array read at an index whose coordinates are `R` and `J`. -/
theorem edgeK_at (Hv : Mat 1024 128) (He : Mat 4096 16) (adj : Mat 4096 4096) (T Tb : Mat 1024 4096) (W : Mat 16 16)
    (brow : Mat 1 16) (p : Mat 1 128) (i : (⟨2, ![4096, 16]⟩ : Shape).Idx) (R : Fin 4096) (J : Fin 16)
    (h0 : (i 0).val = R.val) (h1 : (i 1).val = J.val) :
    edgeK Hv He adj T Tb W brow p i = edgeKAt Hv He adj T Tb W brow p R J := by
  have e0 : (⟨(i 0).val, idx2_lt0 i⟩ : Fin 4096) = R := Fin.ext h0
  have e1 : (⟨(i 1).val, idx2_lt1 i⟩ : Fin 16) = J := Fin.ext h1
  show edgeKAt Hv He adj T Tb W brow p ⟨(i 0).val, idx2_lt0 i⟩ ⟨(i 1).val, idx2_lt1 i⟩ = _
  rw [e0, e1]

/-- A node kernel's stored block at local row `r`, from the payload read at an index: with the whole-array operands
    read as they are and the two row slabs read at global row `tv * 256 + r`, it is the node kernel's array there. -/
theorem node_block_at
    (pay : Mat 4096 16 → Mat 1 16 → Mat 256 4096 → Mat 1024 4096 → Mat 256 1024 → Mat 1024 128 → Mat 128 128 → Mat 1 128 → Mat 256 128)
    (iv tv : Nat) (hiv : iv = tv) (htv : tv < 4)
    (hpay : ∀ he p trows tb adj hv w b (r : Fin 256) (j : Fin 128), pay he p trows tb adj hv w b (ix2 r j)
      = (∑ c : Fin 1024, ((if c.val = r.val + iv * 256 then (1 : EReal) else ∑ e : Fin 4096, (trows (ix2 r e) * gate he p e) * tb (ix2 c e)) * adj (ix2 r c)) * (∑ k : Fin 128, hv (ix2 c k) * w (ix2 k j))) + b (ix2 (0 : Fin 1) j))
    (Hv : Mat 1024 128) (He : Mat 4096 16) (Adj : Mat 1024 1024) (T Tb : Mat 1024 4096) (W : Mat 128 128) (Brow : Mat 1 128) (P : Mat 1 16)
    (trows : Mat 256 4096) (adj : Mat 256 1024)
    (h_trows : ∀ (r : Fin 256) (e : Fin 4096) (h : tv * 256 + r.val < 1024), trows (ix2 r e) = T (ix2 ⟨tv * 256 + r.val, h⟩ e))
    (h_adj : ∀ (r : Fin 256) (c : Fin 1024) (h : tv * 256 + r.val < 1024), adj (ix2 r c) = Adj (ix2 ⟨tv * 256 + r.val, h⟩ c))
    (r : Fin 256) (j : Fin 128) (h : tv * 256 + r.val < 1024) :
    pay He P trows Tb adj Hv W Brow (ix2 r j) = nodeKAt Hv He Adj T Tb W Brow P ⟨tv * 256 + r.val, h⟩ j := by
  rw [hpay]
  unfold nodeKAt
  congr 1
  refine Finset.sum_congr rfl fun c _ => ?_
  congr 1
  rw [h_adj r c h]
  congr 1
  refine if_congr (by subst hiv; show c.val = r.val + iv * 256 ↔ c.val = iv * 256 + r.val; omega) rfl ?_
  refine Finset.sum_congr rfl fun e _ => ?_
  rw [h_trows r e h]

/-- An edge kernel's stored block at local row `r`, from the payload read at an index: with the whole-array operands read
    as they are, the column slab of the incidence matrix read at global column `tv * 256 + r` and the adjacency slab at
    global row `tv * 256 + r`, it is the edge kernel's array there. -/
theorem edge_block_at
    (pay : Mat 1024 128 → Mat 1 128 → Mat 1024 256 → Mat 1024 4096 → Mat 256 4096 → Mat 4096 16 → Mat 16 16 → Mat 1 16 → Mat 256 16)
    (iv tv : Nat) (hiv : iv = tv) (htv : tv < 16)
    (hpay : ∀ hv p tcols tb adj he w b (r : Fin 256) (j : Fin 16), pay hv p tcols tb adj he w b (ix2 r j) = (∑ c : Fin 4096, ((if c.val = r.val + iv * 256 then (1 : EReal) else ∑ v : Fin 1024, (tcols (ix2 v r) * gate hv p v) * tb (ix2 v c)) * adj (ix2 r c)) * (∑ k : Fin 16, he (ix2 c k) * w (ix2 k j))) + b (ix2 (0 : Fin 1) j))
    (Hv : Mat 1024 128) (He : Mat 4096 16) (Adj : Mat 4096 4096) (T Tb : Mat 1024 4096) (W : Mat 16 16) (Brow : Mat 1 16) (P : Mat 1 128)
    (tcols : Mat 1024 256) (adj : Mat 256 4096)
    (h_tcols : ∀ (v : Fin 1024) (r : Fin 256) (h : tv * 256 + r.val < 4096), tcols (ix2 v r) = T (ix2 v ⟨tv * 256 + r.val, h⟩))
    (h_adj : ∀ (r : Fin 256) (c : Fin 4096) (h : tv * 256 + r.val < 4096), adj (ix2 r c) = Adj (ix2 ⟨tv * 256 + r.val, h⟩ c))
    (r : Fin 256) (j : Fin 16) (h : tv * 256 + r.val < 4096) :
    pay Hv P tcols Tb adj He W Brow (ix2 r j) = edgeKAt Hv He Adj T Tb W Brow P ⟨tv * 256 + r.val, h⟩ j := by
  rw [hpay]
  unfold edgeKAt
  congr 1
  refine Finset.sum_congr rfl fun c _ => ?_
  congr 1
  rw [h_adj r c h]
  congr 1
  refine if_congr (by subst hiv; show c.val = r.val + iv * 256 ↔ c.val = iv * 256 + r.val; omega) rfl ?_
  refine Finset.sum_congr rfl fun v _ => ?_
  rw [h_tcols v r h]

variable (V : (c : Dev nD) → (b : Ref sig .tc) → Buf (Elt Ideal) ((c : Thread nD τ).loc b))

theorem hz : (![0, 0] : Fin 2 → Nat) = fun _ => 0 := funext fun a => by fin_cases a <;> rfl

/-! ## Launch 0: a node layer -/

/-- The printed index maps of launch 0, decided once over its grid: the two slabs and the output move with the point, every
    other window stays at block `(0, 0)`, and the grid coordinate is the point's number. -/
theorem idx_facts0 : ∀ t : Fin cfg0.N,
    win0_2.index t (0 : Fin 2) = t.val ∧ win0_2.index t (1 : Fin 2) = 0
    ∧ win0_3.index t (0 : Fin 2) = t.val ∧ win0_3.index t (1 : Fin 2) = 0
    ∧ win0_8.index t (0 : Fin 2) = t.val ∧ win0_8.index t (1 : Fin 2) = 0
    ∧ win0_0.index t (0 : Fin 2) = 0 ∧ win0_0.index t (1 : Fin 2) = 0
    ∧ win0_1.index t (0 : Fin 2) = 0 ∧ win0_1.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ ((grid0.coords t) 0).val = t.val :=
  (by decide +kernel : ∀ t : Fin grid0.N, _)

theorem blk0_0 (c : Dev nD) (t : Fin cfg0.N) : (iblk0 V c 0 t : S1024x128.Idx → EReal) = V c main_arg0 := by
  obtain ⟨e20, e21, e30, e31, e80, e81, e00, e01, e10, e11, e40, e41, e50, e51, e60, e61, e70, e71, ec⟩ := idx_facts0 t
  funext y
  show V c main_arg0 (((cfg0.win 0).blk t).view.emb y) = V c main_arg0 y
  congr 1; funext a; apply Fin.ext
  match a with
  | ⟨0, _⟩ => show win0_0.index t (0 : Fin 2) * 1024 + 1 * (y 0).val = (y 0).val; omega
  | ⟨1, _⟩ => show win0_0.index t (1 : Fin 2) * 128 + 1 * (y 1).val = (y 1).val; omega

theorem blk0_1 (c : Dev nD) (t : Fin cfg0.N) : (iblk0 V c 1 t : S4096x16.Idx → EReal) = V c main_arg1 := by
  obtain ⟨e20, e21, e30, e31, e80, e81, e00, e01, e10, e11, e40, e41, e50, e51, e60, e61, e70, e71, ec⟩ := idx_facts0 t
  funext y
  show V c main_arg1 (((cfg0.win 1).blk t).view.emb y) = V c main_arg1 y
  congr 1; funext a; apply Fin.ext
  match a with
  | ⟨0, _⟩ => show win0_1.index t (0 : Fin 2) * 4096 + 1 * (y 0).val = (y 0).val; omega
  | ⟨1, _⟩ => show win0_1.index t (1 : Fin 2) * 16 + 1 * (y 1).val = (y 1).val; omega

theorem blk0_4 (c : Dev nD) (t : Fin cfg0.N) : (iblk0 V c 4 t : S1024x4096.Idx → EReal) = V c main_v0 := by
  obtain ⟨e20, e21, e30, e31, e80, e81, e00, e01, e10, e11, e40, e41, e50, e51, e60, e61, e70, e71, ec⟩ := idx_facts0 t
  funext y
  show V c main_v0 (((cfg0.win 4).blk t).view.emb y) = V c main_v0 y
  congr 1; funext a; apply Fin.ext
  match a with
  | ⟨0, _⟩ => show win0_4.index t (0 : Fin 2) * 1024 + 1 * (y 0).val = (y 0).val; omega
  | ⟨1, _⟩ => show win0_4.index t (1 : Fin 2) * 4096 + 1 * (y 1).val = (y 1).val; omega

theorem blk0_5 (c : Dev nD) (t : Fin cfg0.N) : (iblk0 V c 5 t : S128x128.Idx → EReal) = V c main_arg5 := by
  obtain ⟨e20, e21, e30, e31, e80, e81, e00, e01, e10, e11, e40, e41, e50, e51, e60, e61, e70, e71, ec⟩ := idx_facts0 t
  funext y
  show V c main_arg5 (((cfg0.win 5).blk t).view.emb y) = V c main_arg5 y
  congr 1; funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem blk0_6 (c : Dev nD) (t : Fin cfg0.N) : (iblk0 V c 6 t : S1x128.Idx → EReal) = V c main_v1 := by
  obtain ⟨e20, e21, e30, e31, e80, e81, e00, e01, e10, e11, e40, e41, e50, e51, e60, e61, e70, e71, ec⟩ := idx_facts0 t
  funext y
  show V c main_v1 (((cfg0.win 6).blk t).view.emb y) = V c main_v1 y
  congr 1; funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem blk0_7 (c : Dev nD) (t : Fin cfg0.N) : (iblk0 V c 7 t : S1x16.Idx → EReal) = V c main_arg7 := by
  obtain ⟨e20, e21, e30, e31, e80, e81, e00, e01, e10, e11, e40, e41, e50, e51, e60, e61, e70, e71, ec⟩ := idx_facts0 t
  funext y
  show V c main_arg7 (((cfg0.win 7).blk t).view.emb y) = V c main_arg7 y
  congr 1; funext a; apply Fin.ext
  match a with
  | ⟨0, _⟩ => show win0_7.index t (0 : Fin 2) * 1 + 1 * (y 0).val = (y 0).val; omega
  | ⟨1, _⟩ => show win0_7.index t (1 : Fin 2) * 16 + 1 * (y 1).val = (y 1).val; omega

/-- A row slab of launch 0 read at local row `r` is its array at row `256 t + r`. -/
theorem blk0_3 (c : Dev nD) (t : Fin cfg0.N) (r : Fin 256) (k : Fin 4096) (h : t.val * 256 + r.val < 1024) :
    (iblk0 V c 3 t : S256x4096.Idx → EReal) (ix2 r k) = V c main_arg4 (ix2 ⟨t.val * 256 + r.val, h⟩ k) := by
  obtain ⟨e20, e21, e30, e31, e80, e81, e00, e01, e10, e11, e40, e41, e50, e51, e60, e61, e70, e71, ec⟩ := idx_facts0 t
  show V c main_arg4 (((cfg0.win 3).blk t).view.emb (ix2 r k)) = _
  congr 1; funext a; apply Fin.ext
  match a with
  | ⟨0, _⟩ => show win0_3.index t (0 : Fin 2) * 256 + 1 * r.val = t.val * 256 + r.val; omega
  | ⟨1, _⟩ => show win0_3.index t (1 : Fin 2) * 4096 + 1 * k.val = k.val; omega

/-- A row slab of launch 0 read at local row `r` is its array at row `256 t + r`. -/
theorem blk0_2 (c : Dev nD) (t : Fin cfg0.N) (r : Fin 256) (k : Fin 1024) (h : t.val * 256 + r.val < 1024) :
    (iblk0 V c 2 t : S256x1024.Idx → EReal) (ix2 r k) = V c main_arg3 (ix2 ⟨t.val * 256 + r.val, h⟩ k) := by
  obtain ⟨e20, e21, e30, e31, e80, e81, e00, e01, e10, e11, e40, e41, e50, e51, e60, e61, e70, e71, ec⟩ := idx_facts0 t
  show V c main_arg3 (((cfg0.win 2).blk t).view.emb (ix2 r k)) = _
  congr 1; funext a; apply Fin.ext
  match a with
  | ⟨0, _⟩ => show win0_2.index t (0 : Fin 2) * 256 + 1 * r.val = t.val * 256 + r.val; omega
  | ⟨1, _⟩ => show win0_2.index t (1 : Fin 2) * 1024 + 1 * k.val = k.val; omega

set_option maxHeartbeats 400000 in
/-- Point `t` of launch 0 stores, at every index of its block, the node kernel's array of the entry contents at the
    block's place in the array: rows `256 t … 256 t + 255`. -/
theorem stored0 (hpay : ∀ (i : grid0.Coords) (he : Mat 4096 16) (p : Mat 1 16) (trows : Mat 256 4096) (tb : Mat 1024 4096) (adj : Mat 256 1024) (hv : Mat 1024 128) (w : Mat 128 128) (b : Mat 1 128) (r : Fin 256) (j : Fin 128),
      k0_pay1 (F := Ideal) (k0_pay2 i he p trows tb adj hv w) (k0_pay3 b) (ix2 r j) = (∑ c : Fin 1024, ((if c.val = r.val + (i 0).val * 256 then (1 : EReal) else ∑ e : Fin 4096, (trows (ix2 r e) * gate he p e) * tb (ix2 c e)) * adj (ix2 r c)) * (∑ k : Fin 128, hv (ix2 c k) * w (ix2 k j))) + b (ix2 (0 : Fin 1) j))
    (c : Dev nD) (t : Fin cfg0.N) (y : S256x128.Idx) :
    k0_pay1 (F := Ideal) (k0_pay2 (grid0.coords t) (iblk0 V c 1 t) (iblk0 V c 7 t) (iblk0 V c 3 t) (iblk0 V c 4 t) (iblk0 V c 2 t) (iblk0 V c 0 t) (iblk0 V c 5 t)) (k0_pay3 (iblk0 V c 6 t)) y
      = nodeK (V c main_arg0) (V c main_arg1) (V c main_arg3) (V c main_arg4) (V c main_v0) (V c main_arg5) (V c main_v1) (V c main_arg7) (((cfg0.win 8).blk t).view.emb y) := by
  have h4 : t.val < 4 := t.isLt
  obtain ⟨e20, e21, e30, e31, e80, e81, e00, e01, e10, e11, e40, e41, e50, e51, e60, e61, e70, e71, ec⟩ := idx_facts0 t
  obtain ⟨r, j, rfl⟩ : ∃ (r : Fin 256) (j : Fin 128), y = ix2 r j := ⟨y 0, y 1, eq_ix2 y⟩
  have hlt : t.val * 256 + r.val < 1024 := by have := r.isLt; omega
  rw [blk0_1 V c t, blk0_7 V c t, blk0_4 V c t, blk0_0 V c t, blk0_5 V c t, blk0_6 V c t]
  refine (node_block_at
    (fun he p trows tb adj hv w b => k0_pay1 (F := Ideal) (k0_pay2 (grid0.coords t) he p trows tb adj hv w) (k0_pay3 b))
    ((grid0.coords t) 0).val t.val ec h4
    (fun he p trows tb adj hv w b r j => hpay (grid0.coords t) he p trows tb adj hv w b r j)
    (V c main_arg0) (V c main_arg1) (V c main_arg3) (V c main_arg4) (V c main_v0) (V c main_arg5) (V c main_v1) (V c main_arg7)
    (iblk0 V c 3 t) (iblk0 V c 2 t) (fun r e h => blk0_3 V c t r e h) (fun r k h => blk0_2 V c t r k h) r j hlt).trans ?_
  exact (nodeK_at (V c main_arg0) (V c main_arg1) (V c main_arg3) (V c main_arg4) (V c main_v0) (V c main_arg5) (V c main_v1) (V c main_arg7)
    (((cfg0.win 8).blk t).view.emb (ix2 r j)) ⟨t.val * 256 + r.val, hlt⟩ j
    (by show win0_8.index t (0 : Fin 2) * 256 + 1 * r.val = t.val * 256 + r.val; omega)
    (by show win0_8.index t (1 : Fin 2) * 128 + 1 * j.val = j.val; omega)).symm

/-- What point `t` of launch 0 writes back is its block of the node kernel's array of the entry contents. -/
theorem flushed0 (hpay : ∀ (i : grid0.Coords) (he : Mat 4096 16) (p : Mat 1 16) (trows : Mat 256 4096) (tb : Mat 1024 4096) (adj : Mat 256 1024) (hv : Mat 1024 128) (w : Mat 128 128) (b : Mat 1 128) (r : Fin 256) (j : Fin 128),
      k0_pay1 (F := Ideal) (k0_pay2 i he p trows tb adj hv w) (k0_pay3 b) (ix2 r j) = (∑ c : Fin 1024, ((if c.val = r.val + (i 0).val * 256 then (1 : EReal) else ∑ e : Fin 4096, (trows (ix2 r e) * gate he p e) * tb (ix2 c e)) * adj (ix2 r c)) * (∑ k : Fin 128, hv (ix2 c k) * w (ix2 k j))) + b (ix2 (0 : Fin 1) j))
    (c : Dev nD) (t : Fin cfg0.N) :
    (dat0 V c).flushed 8 t = ((cfg0.win 8).blk t).view.read (Elt Ideal) (nodeK (V c main_arg0) (V c main_arg1) (V c main_arg3) (V c main_arg4) (V c main_v0) (V c main_arg5) (V c main_v1) (V c main_arg7)) := by
  show (cfg0.win 8).cut (grid0.coords t) ((dat0 V c).after 8 t) = _
  rw [after0_8]
  unfold out0_8
  rw [View.canon_unit_zero hz]
  simp only [View.ld_unit_zero (S := S1024x128) hz, View.ld_unit_zero (S := S4096x16) hz, View.ld_unit_zero (S := S256x1024) hz, View.ld_unit_zero (S := S256x4096) hz, View.ld_unit_zero (S := S1024x4096) hz, View.ld_unit_zero (S := S128x128) hz, View.ld_unit_zero (S := S1x128) hz, View.ld_unit_zero (S := S1x16) hz]
  funext y
  exact stored0 V hpay c t y

/-- An index of the result array is in point `t`'s block iff each coordinate is in the block's range on its axis. -/
theorem mem_blk0 (t : Fin cfg0.N) (i : S1024x128.Idx) :
    i ∈ ((cfg0.win 8).blk t).view.set ↔ ∀ a : Fin 2, win0_8.index t a * S256x128.size a ≤ (i a).val ∧ (i a).val < win0_8.index t a * S256x128.size a + S256x128.size a := by
  show i ∈ ((View.whole main_v2).slice (win0_8.rect t)).set ↔ _
  rw [View.set_slice_whole, Rect.mem_set_unit]
  exact Iff.rfl

/-- The output blocks tile the result array: row `i 0` is in the block of point `(i 0) / 256`, which is written back. -/
theorem cover0 (i : S1024x128.Idx) : ∃ t : Fin cfg0.N, (cfg0.win 8).flush t = true ∧ i ∈ ((cfg0.win 8).blk t).view.set := by
  have hi0 : (i 0).val < 1024 := (i 0).isLt
  have hi1 : (i 1).val < 128 := (i 1).isLt
  have hq : (i 0).val / 256 < 4 := by omega
  refine ⟨⟨(i 0).val / 256, hq⟩, flush0_8 _, ?_⟩
  rw [mem_blk0]
  obtain ⟨e20, e21, e30, e31, e80, e81, e00, e01, e10, e11, e40, e41, e50, e51, e60, e61, e70, e71, ec⟩ := idx_facts0 ⟨(i 0).val / 256, hq⟩
  have e80' : win0_8.index ⟨(i 0).val / 256, hq⟩ (0 : Fin 2) = (i 0).val / 256 := e80
  intro a
  match a with
  | ⟨0, _⟩ => show win0_8.index ⟨(i 0).val / 256, hq⟩ (0 : Fin 2) * 256 ≤ (i 0).val ∧ (i 0).val < win0_8.index ⟨(i 0).val / 256, hq⟩ (0 : Fin 2) * 256 + 256; omega
  | ⟨1, _⟩ => show win0_8.index ⟨(i 0).val / 256, hq⟩ (1 : Fin 2) * 128 ≤ (i 1).val ∧ (i 1).val < win0_8.index ⟨(i 0).val / 256, hq⟩ (1 : Fin 2) * 128 + 128; omega

/-- After launch 0 its result array is the node kernel's array of the contents the launch was entered with. -/
theorem region0_array_of (hpay : ∀ (i : grid0.Coords) (he : Mat 4096 16) (p : Mat 1 16) (trows : Mat 256 4096) (tb : Mat 1024 4096) (adj : Mat 256 1024) (hv : Mat 1024 128) (w : Mat 128 128) (b : Mat 1 128) (r : Fin 256) (j : Fin 128),
      k0_pay1 (F := Ideal) (k0_pay2 i he p trows tb adj hv w) (k0_pay3 b) (ix2 r j) = (∑ c : Fin 1024, ((if c.val = r.val + (i 0).val * 256 then (1 : EReal) else ∑ e : Fin 4096, (trows (ix2 r e) * gate he p e) * tb (ix2 c e)) * adj (ix2 r c)) * (∑ k : Fin 128, hv (ix2 c k) * w (ix2 k j))) + b (ix2 (0 : Fin 1) j)) (c : Dev nD) :
    (dat0 V c).arrAt 8 cfg0.N = nodeK (V c main_arg0) (V c main_arg1) (V c main_arg3) (V c main_arg4) (V c main_v0) (V c main_arg5) (V c main_v1) (V c main_arg7) :=
  (dat0 V c).arrAt_eq_of_cover 8 _ (fun t _ => flushed0 V hpay c t) cover0

/-! ## Launch 1: the edge layer -/

/-- The printed index maps of launch 1, decided once over its grid: the two slabs and the output move with the point, every
    other window stays at block `(0, 0)`, and the grid coordinate is the point's number. -/
theorem idx_facts1 : ∀ t : Fin cfg1.N,
    win1_2.index t (0 : Fin 2) = t.val ∧ win1_2.index t (1 : Fin 2) = 0
    ∧ win1_3.index t (0 : Fin 2) = 0 ∧ win1_3.index t (1 : Fin 2) = t.val
    ∧ win1_8.index t (0 : Fin 2) = t.val ∧ win1_8.index t (1 : Fin 2) = 0
    ∧ win1_0.index t (0 : Fin 2) = 0 ∧ win1_0.index t (1 : Fin 2) = 0
    ∧ win1_1.index t (0 : Fin 2) = 0 ∧ win1_1.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ ((grid1.coords t) 0).val = t.val :=
  (by decide +kernel : ∀ t : Fin grid1.N, _)

theorem blk1_0 (c : Dev nD) (t : Fin cfg1.N) : (iblk1 V c 0 t : S1024x128.Idx → EReal) = V c main_v2 := by
  obtain ⟨e20, e21, e30, e31, e80, e81, e00, e01, e10, e11, e40, e41, e50, e51, e60, e61, e70, e71, ec⟩ := idx_facts1 t
  funext y
  show V c main_v2 (((cfg1.win 0).blk t).view.emb y) = V c main_v2 y
  congr 1; funext a; apply Fin.ext
  match a with
  | ⟨0, _⟩ => show win1_0.index t (0 : Fin 2) * 1024 + 1 * (y 0).val = (y 0).val; omega
  | ⟨1, _⟩ => show win1_0.index t (1 : Fin 2) * 128 + 1 * (y 1).val = (y 1).val; omega

theorem blk1_1 (c : Dev nD) (t : Fin cfg1.N) : (iblk1 V c 1 t : S4096x16.Idx → EReal) = V c main_arg1 := by
  obtain ⟨e20, e21, e30, e31, e80, e81, e00, e01, e10, e11, e40, e41, e50, e51, e60, e61, e70, e71, ec⟩ := idx_facts1 t
  funext y
  show V c main_arg1 (((cfg1.win 1).blk t).view.emb y) = V c main_arg1 y
  congr 1; funext a; apply Fin.ext
  match a with
  | ⟨0, _⟩ => show win1_1.index t (0 : Fin 2) * 4096 + 1 * (y 0).val = (y 0).val; omega
  | ⟨1, _⟩ => show win1_1.index t (1 : Fin 2) * 16 + 1 * (y 1).val = (y 1).val; omega

theorem blk1_4 (c : Dev nD) (t : Fin cfg1.N) : (iblk1 V c 4 t : S1024x4096.Idx → EReal) = V c main_v0 := by
  obtain ⟨e20, e21, e30, e31, e80, e81, e00, e01, e10, e11, e40, e41, e50, e51, e60, e61, e70, e71, ec⟩ := idx_facts1 t
  funext y
  show V c main_v0 (((cfg1.win 4).blk t).view.emb y) = V c main_v0 y
  congr 1; funext a; apply Fin.ext
  match a with
  | ⟨0, _⟩ => show win1_4.index t (0 : Fin 2) * 1024 + 1 * (y 0).val = (y 0).val; omega
  | ⟨1, _⟩ => show win1_4.index t (1 : Fin 2) * 4096 + 1 * (y 1).val = (y 1).val; omega

theorem blk1_5 (c : Dev nD) (t : Fin cfg1.N) : (iblk1 V c 5 t : S16x16.Idx → EReal) = V c main_arg8 := by
  obtain ⟨e20, e21, e30, e31, e80, e81, e00, e01, e10, e11, e40, e41, e50, e51, e60, e61, e70, e71, ec⟩ := idx_facts1 t
  funext y
  show V c main_arg8 (((cfg1.win 5).blk t).view.emb y) = V c main_arg8 y
  congr 1; funext a; apply Fin.ext
  match a with
  | ⟨0, _⟩ => show win1_5.index t (0 : Fin 2) * 16 + 1 * (y 0).val = (y 0).val; omega
  | ⟨1, _⟩ => show win1_5.index t (1 : Fin 2) * 16 + 1 * (y 1).val = (y 1).val; omega

theorem blk1_6 (c : Dev nD) (t : Fin cfg1.N) : (iblk1 V c 6 t : S1x16.Idx → EReal) = V c main_v3 := by
  obtain ⟨e20, e21, e30, e31, e80, e81, e00, e01, e10, e11, e40, e41, e50, e51, e60, e61, e70, e71, ec⟩ := idx_facts1 t
  funext y
  show V c main_v3 (((cfg1.win 6).blk t).view.emb y) = V c main_v3 y
  congr 1; funext a; apply Fin.ext
  match a with
  | ⟨0, _⟩ => show win1_6.index t (0 : Fin 2) * 1 + 1 * (y 0).val = (y 0).val; omega
  | ⟨1, _⟩ => show win1_6.index t (1 : Fin 2) * 16 + 1 * (y 1).val = (y 1).val; omega

theorem blk1_7 (c : Dev nD) (t : Fin cfg1.N) : (iblk1 V c 7 t : S1x128.Idx → EReal) = V c main_arg10 := by
  obtain ⟨e20, e21, e30, e31, e80, e81, e00, e01, e10, e11, e40, e41, e50, e51, e60, e61, e70, e71, ec⟩ := idx_facts1 t
  funext y
  show V c main_arg10 (((cfg1.win 7).blk t).view.emb y) = V c main_arg10 y
  congr 1; funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- The column slab of the incidence matrix read at local column `r` is the matrix at column `256 t + r`. -/
theorem blk1_3 (c : Dev nD) (t : Fin cfg1.N) (v : Fin 1024) (r : Fin 256) (h : t.val * 256 + r.val < 4096) :
    (iblk1 V c 3 t : S1024x256.Idx → EReal) (ix2 v r) = V c main_arg4 (ix2 v ⟨t.val * 256 + r.val, h⟩) := by
  obtain ⟨e20, e21, e30, e31, e80, e81, e00, e01, e10, e11, e40, e41, e50, e51, e60, e61, e70, e71, ec⟩ := idx_facts1 t
  show V c main_arg4 (((cfg1.win 3).blk t).view.emb (ix2 v r)) = _
  congr 1; funext a; apply Fin.ext
  match a with
  | ⟨0, _⟩ => show win1_3.index t (0 : Fin 2) * 1024 + 1 * v.val = v.val; omega
  | ⟨1, _⟩ => show win1_3.index t (1 : Fin 2) * 256 + 1 * r.val = t.val * 256 + r.val; omega

/-- A row slab of launch 1 read at local row `r` is its array at row `256 t + r`. -/
theorem blk1_2 (c : Dev nD) (t : Fin cfg1.N) (r : Fin 256) (k : Fin 4096) (h : t.val * 256 + r.val < 4096) :
    (iblk1 V c 2 t : S256x4096.Idx → EReal) (ix2 r k) = V c main_arg2 (ix2 ⟨t.val * 256 + r.val, h⟩ k) := by
  obtain ⟨e20, e21, e30, e31, e80, e81, e00, e01, e10, e11, e40, e41, e50, e51, e60, e61, e70, e71, ec⟩ := idx_facts1 t
  show V c main_arg2 (((cfg1.win 2).blk t).view.emb (ix2 r k)) = _
  congr 1; funext a; apply Fin.ext
  match a with
  | ⟨0, _⟩ => show win1_2.index t (0 : Fin 2) * 256 + 1 * r.val = t.val * 256 + r.val; omega
  | ⟨1, _⟩ => show win1_2.index t (1 : Fin 2) * 4096 + 1 * k.val = k.val; omega

set_option maxHeartbeats 400000 in
/-- Point `t` of launch 1 stores, at every index of its block, the edge kernel's array of the entry contents at the
    block's place in the array: rows `256 t … 256 t + 255`. -/
theorem stored1 (hpay : ∀ (i : grid1.Coords) (hv : Mat 1024 128) (p : Mat 1 128) (tcols : Mat 1024 256) (tb : Mat 1024 4096) (adj : Mat 256 4096) (he : Mat 4096 16) (w : Mat 16 16) (b : Mat 1 16) (r : Fin 256) (j : Fin 16),
      k1_pay1 (F := Ideal) (k1_pay2 i hv p tcols tb adj he w) b (ix2 r j) = (∑ c : Fin 4096, ((if c.val = r.val + (i 0).val * 256 then (1 : EReal) else ∑ v : Fin 1024, (tcols (ix2 v r) * gate hv p v) * tb (ix2 v c)) * adj (ix2 r c)) * (∑ k : Fin 16, he (ix2 c k) * w (ix2 k j))) + b (ix2 (0 : Fin 1) j))
    (c : Dev nD) (t : Fin cfg1.N) (y : S256x16.Idx) :
    k1_pay1 (F := Ideal) (k1_pay2 (grid1.coords t) (iblk1 V c 0 t) (iblk1 V c 7 t) (iblk1 V c 3 t) (iblk1 V c 4 t) (iblk1 V c 2 t) (iblk1 V c 1 t) (iblk1 V c 5 t)) (iblk1 V c 6 t) y
      = edgeK (V c main_v2) (V c main_arg1) (V c main_arg2) (V c main_arg4) (V c main_v0) (V c main_arg8) (V c main_v3) (V c main_arg10) (((cfg1.win 8).blk t).view.emb y) := by
  have h16 : t.val < 16 := t.isLt
  obtain ⟨e20, e21, e30, e31, e80, e81, e00, e01, e10, e11, e40, e41, e50, e51, e60, e61, e70, e71, ec⟩ := idx_facts1 t
  obtain ⟨r, j, rfl⟩ : ∃ (r : Fin 256) (j : Fin 16), y = ix2 r j := ⟨y 0, y 1, eq_ix2 y⟩
  have hlt : t.val * 256 + r.val < 4096 := by have := r.isLt; omega
  rw [blk1_0 V c t, blk1_7 V c t, blk1_4 V c t, blk1_1 V c t, blk1_5 V c t, blk1_6 V c t]
  refine (edge_block_at
    (fun hv p tcols tb adj he w b => k1_pay1 (F := Ideal) (k1_pay2 (grid1.coords t) hv p tcols tb adj he w) b)
    ((grid1.coords t) 0).val t.val ec h16
    (fun hv p tcols tb adj he w b r j => hpay (grid1.coords t) hv p tcols tb adj he w b r j)
    (V c main_v2) (V c main_arg1) (V c main_arg2) (V c main_arg4) (V c main_v0) (V c main_arg8) (V c main_v3) (V c main_arg10)
    (iblk1 V c 3 t) (iblk1 V c 2 t) (fun v r h => blk1_3 V c t v r h) (fun r k h => blk1_2 V c t r k h) r j hlt).trans ?_
  exact (edgeK_at (V c main_v2) (V c main_arg1) (V c main_arg2) (V c main_arg4) (V c main_v0) (V c main_arg8) (V c main_v3) (V c main_arg10)
    (((cfg1.win 8).blk t).view.emb (ix2 r j)) ⟨t.val * 256 + r.val, hlt⟩ j
    (by show win1_8.index t (0 : Fin 2) * 256 + 1 * r.val = t.val * 256 + r.val; omega)
    (by show win1_8.index t (1 : Fin 2) * 16 + 1 * j.val = j.val; omega)).symm

/-- What point `t` of launch 1 writes back is its block of the edge kernel's array of the entry contents. -/
theorem flushed1 (hpay : ∀ (i : grid1.Coords) (hv : Mat 1024 128) (p : Mat 1 128) (tcols : Mat 1024 256) (tb : Mat 1024 4096) (adj : Mat 256 4096) (he : Mat 4096 16) (w : Mat 16 16) (b : Mat 1 16) (r : Fin 256) (j : Fin 16),
      k1_pay1 (F := Ideal) (k1_pay2 i hv p tcols tb adj he w) b (ix2 r j) = (∑ c : Fin 4096, ((if c.val = r.val + (i 0).val * 256 then (1 : EReal) else ∑ v : Fin 1024, (tcols (ix2 v r) * gate hv p v) * tb (ix2 v c)) * adj (ix2 r c)) * (∑ k : Fin 16, he (ix2 c k) * w (ix2 k j))) + b (ix2 (0 : Fin 1) j))
    (c : Dev nD) (t : Fin cfg1.N) :
    (dat1 V c).flushed 8 t = ((cfg1.win 8).blk t).view.read (Elt Ideal) (edgeK (V c main_v2) (V c main_arg1) (V c main_arg2) (V c main_arg4) (V c main_v0) (V c main_arg8) (V c main_v3) (V c main_arg10)) := by
  show (cfg1.win 8).cut (grid1.coords t) ((dat1 V c).after 8 t) = _
  rw [after1_8]
  unfold out1_8
  rw [View.canon_unit_zero hz]
  simp only [View.ld_unit_zero (S := S1024x128) hz, View.ld_unit_zero (S := S4096x16) hz, View.ld_unit_zero (S := S256x4096) hz, View.ld_unit_zero (S := S1024x256) hz, View.ld_unit_zero (S := S1024x4096) hz, View.ld_unit_zero (S := S16x16) hz, View.ld_unit_zero (S := S1x16) hz, View.ld_unit_zero (S := S1x128) hz]
  funext y
  exact stored1 V hpay c t y

/-- An index of the result array is in point `t`'s block iff each coordinate is in the block's range on its axis. -/
theorem mem_blk1 (t : Fin cfg1.N) (i : S4096x16.Idx) :
    i ∈ ((cfg1.win 8).blk t).view.set ↔ ∀ a : Fin 2, win1_8.index t a * S256x16.size a ≤ (i a).val ∧ (i a).val < win1_8.index t a * S256x16.size a + S256x16.size a := by
  show i ∈ ((View.whole main_v4).slice (win1_8.rect t)).set ↔ _
  rw [View.set_slice_whole, Rect.mem_set_unit]
  exact Iff.rfl

/-- The output blocks tile the result array: row `i 0` is in the block of point `(i 0) / 256`, which is written back. -/
theorem cover1 (i : S4096x16.Idx) : ∃ t : Fin cfg1.N, (cfg1.win 8).flush t = true ∧ i ∈ ((cfg1.win 8).blk t).view.set := by
  have hi0 : (i 0).val < 4096 := (i 0).isLt
  have hi1 : (i 1).val < 16 := (i 1).isLt
  have hq : (i 0).val / 256 < 16 := by omega
  refine ⟨⟨(i 0).val / 256, hq⟩, flush1_8 _, ?_⟩
  rw [mem_blk1]
  obtain ⟨e20, e21, e30, e31, e80, e81, e00, e01, e10, e11, e40, e41, e50, e51, e60, e61, e70, e71, ec⟩ := idx_facts1 ⟨(i 0).val / 256, hq⟩
  have e80' : win1_8.index ⟨(i 0).val / 256, hq⟩ (0 : Fin 2) = (i 0).val / 256 := e80
  intro a
  match a with
  | ⟨0, _⟩ => show win1_8.index ⟨(i 0).val / 256, hq⟩ (0 : Fin 2) * 256 ≤ (i 0).val ∧ (i 0).val < win1_8.index ⟨(i 0).val / 256, hq⟩ (0 : Fin 2) * 256 + 256; omega
  | ⟨1, _⟩ => show win1_8.index ⟨(i 0).val / 256, hq⟩ (1 : Fin 2) * 16 ≤ (i 1).val ∧ (i 1).val < win1_8.index ⟨(i 0).val / 256, hq⟩ (1 : Fin 2) * 16 + 16; omega

/-- After launch 1 its result array is the edge kernel's array of the contents the launch was entered with. -/
theorem region1_array_of (hpay : ∀ (i : grid1.Coords) (hv : Mat 1024 128) (p : Mat 1 128) (tcols : Mat 1024 256) (tb : Mat 1024 4096) (adj : Mat 256 4096) (he : Mat 4096 16) (w : Mat 16 16) (b : Mat 1 16) (r : Fin 256) (j : Fin 16),
      k1_pay1 (F := Ideal) (k1_pay2 i hv p tcols tb adj he w) b (ix2 r j) = (∑ c : Fin 4096, ((if c.val = r.val + (i 0).val * 256 then (1 : EReal) else ∑ v : Fin 1024, (tcols (ix2 v r) * gate hv p v) * tb (ix2 v c)) * adj (ix2 r c)) * (∑ k : Fin 16, he (ix2 c k) * w (ix2 k j))) + b (ix2 (0 : Fin 1) j)) (c : Dev nD) :
    (dat1 V c).arrAt 8 cfg1.N = edgeK (V c main_v2) (V c main_arg1) (V c main_arg2) (V c main_arg4) (V c main_v0) (V c main_arg8) (V c main_v3) (V c main_arg10) :=
  (dat1 V c).arrAt_eq_of_cover 8 _ (fun t _ => flushed1 V hpay c t) cover1

/-! ## Launch 2: a node layer -/

/-- The printed index maps of launch 2, decided once over its grid: the two slabs and the output move with the point, every
    other window stays at block `(0, 0)`, and the grid coordinate is the point's number. -/
theorem idx_facts2 : ∀ t : Fin cfg2.N,
    win2_2.index t (0 : Fin 2) = t.val ∧ win2_2.index t (1 : Fin 2) = 0
    ∧ win2_3.index t (0 : Fin 2) = t.val ∧ win2_3.index t (1 : Fin 2) = 0
    ∧ win2_8.index t (0 : Fin 2) = t.val ∧ win2_8.index t (1 : Fin 2) = 0
    ∧ win2_0.index t (0 : Fin 2) = 0 ∧ win2_0.index t (1 : Fin 2) = 0
    ∧ win2_1.index t (0 : Fin 2) = 0 ∧ win2_1.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ ((grid2.coords t) 0).val = t.val :=
  (by decide +kernel : ∀ t : Fin grid2.N, _)

theorem blk2_0 (c : Dev nD) (t : Fin cfg2.N) : (iblk2 V c 0 t : S1024x128.Idx → EReal) = V c main_v2 := by
  obtain ⟨e20, e21, e30, e31, e80, e81, e00, e01, e10, e11, e40, e41, e50, e51, e60, e61, e70, e71, ec⟩ := idx_facts2 t
  funext y
  show V c main_v2 (((cfg2.win 0).blk t).view.emb y) = V c main_v2 y
  congr 1; funext a; apply Fin.ext
  match a with
  | ⟨0, _⟩ => show win2_0.index t (0 : Fin 2) * 1024 + 1 * (y 0).val = (y 0).val; omega
  | ⟨1, _⟩ => show win2_0.index t (1 : Fin 2) * 128 + 1 * (y 1).val = (y 1).val; omega

theorem blk2_1 (c : Dev nD) (t : Fin cfg2.N) : (iblk2 V c 1 t : S4096x16.Idx → EReal) = V c main_v4 := by
  obtain ⟨e20, e21, e30, e31, e80, e81, e00, e01, e10, e11, e40, e41, e50, e51, e60, e61, e70, e71, ec⟩ := idx_facts2 t
  funext y
  show V c main_v4 (((cfg2.win 1).blk t).view.emb y) = V c main_v4 y
  congr 1; funext a; apply Fin.ext
  match a with
  | ⟨0, _⟩ => show win2_1.index t (0 : Fin 2) * 4096 + 1 * (y 0).val = (y 0).val; omega
  | ⟨1, _⟩ => show win2_1.index t (1 : Fin 2) * 16 + 1 * (y 1).val = (y 1).val; omega

theorem blk2_4 (c : Dev nD) (t : Fin cfg2.N) : (iblk2 V c 4 t : S1024x4096.Idx → EReal) = V c main_v0 := by
  obtain ⟨e20, e21, e30, e31, e80, e81, e00, e01, e10, e11, e40, e41, e50, e51, e60, e61, e70, e71, ec⟩ := idx_facts2 t
  funext y
  show V c main_v0 (((cfg2.win 4).blk t).view.emb y) = V c main_v0 y
  congr 1; funext a; apply Fin.ext
  match a with
  | ⟨0, _⟩ => show win2_4.index t (0 : Fin 2) * 1024 + 1 * (y 0).val = (y 0).val; omega
  | ⟨1, _⟩ => show win2_4.index t (1 : Fin 2) * 4096 + 1 * (y 1).val = (y 1).val; omega

theorem blk2_5 (c : Dev nD) (t : Fin cfg2.N) : (iblk2 V c 5 t : S128x128.Idx → EReal) = V c main_arg11 := by
  obtain ⟨e20, e21, e30, e31, e80, e81, e00, e01, e10, e11, e40, e41, e50, e51, e60, e61, e70, e71, ec⟩ := idx_facts2 t
  funext y
  show V c main_arg11 (((cfg2.win 5).blk t).view.emb y) = V c main_arg11 y
  congr 1; funext a; apply Fin.ext
  match a with
  | ⟨0, _⟩ => show win2_5.index t (0 : Fin 2) * 128 + 1 * (y 0).val = (y 0).val; omega
  | ⟨1, _⟩ => show win2_5.index t (1 : Fin 2) * 128 + 1 * (y 1).val = (y 1).val; omega

theorem blk2_6 (c : Dev nD) (t : Fin cfg2.N) : (iblk2 V c 6 t : S1x128.Idx → EReal) = V c main_v5 := by
  obtain ⟨e20, e21, e30, e31, e80, e81, e00, e01, e10, e11, e40, e41, e50, e51, e60, e61, e70, e71, ec⟩ := idx_facts2 t
  funext y
  show V c main_v5 (((cfg2.win 6).blk t).view.emb y) = V c main_v5 y
  congr 1; funext a; apply Fin.ext
  match a with
  | ⟨0, _⟩ => show win2_6.index t (0 : Fin 2) * 1 + 1 * (y 0).val = (y 0).val; omega
  | ⟨1, _⟩ => show win2_6.index t (1 : Fin 2) * 128 + 1 * (y 1).val = (y 1).val; omega

theorem blk2_7 (c : Dev nD) (t : Fin cfg2.N) : (iblk2 V c 7 t : S1x16.Idx → EReal) = V c main_arg13 := by
  obtain ⟨e20, e21, e30, e31, e80, e81, e00, e01, e10, e11, e40, e41, e50, e51, e60, e61, e70, e71, ec⟩ := idx_facts2 t
  funext y
  show V c main_arg13 (((cfg2.win 7).blk t).view.emb y) = V c main_arg13 y
  congr 1; funext a; apply Fin.ext
  match a with
  | ⟨0, _⟩ => show win2_7.index t (0 : Fin 2) * 1 + 1 * (y 0).val = (y 0).val; omega
  | ⟨1, _⟩ => show win2_7.index t (1 : Fin 2) * 16 + 1 * (y 1).val = (y 1).val; omega

/-- A row slab of launch 2 read at local row `r` is its array at row `256 t + r`. -/
theorem blk2_3 (c : Dev nD) (t : Fin cfg2.N) (r : Fin 256) (k : Fin 4096) (h : t.val * 256 + r.val < 1024) :
    (iblk2 V c 3 t : S256x4096.Idx → EReal) (ix2 r k) = V c main_arg4 (ix2 ⟨t.val * 256 + r.val, h⟩ k) := by
  obtain ⟨e20, e21, e30, e31, e80, e81, e00, e01, e10, e11, e40, e41, e50, e51, e60, e61, e70, e71, ec⟩ := idx_facts2 t
  show V c main_arg4 (((cfg2.win 3).blk t).view.emb (ix2 r k)) = _
  congr 1; funext a; apply Fin.ext
  match a with
  | ⟨0, _⟩ => show win2_3.index t (0 : Fin 2) * 256 + 1 * r.val = t.val * 256 + r.val; omega
  | ⟨1, _⟩ => show win2_3.index t (1 : Fin 2) * 4096 + 1 * k.val = k.val; omega

/-- A row slab of launch 2 read at local row `r` is its array at row `256 t + r`. -/
theorem blk2_2 (c : Dev nD) (t : Fin cfg2.N) (r : Fin 256) (k : Fin 1024) (h : t.val * 256 + r.val < 1024) :
    (iblk2 V c 2 t : S256x1024.Idx → EReal) (ix2 r k) = V c main_arg3 (ix2 ⟨t.val * 256 + r.val, h⟩ k) := by
  obtain ⟨e20, e21, e30, e31, e80, e81, e00, e01, e10, e11, e40, e41, e50, e51, e60, e61, e70, e71, ec⟩ := idx_facts2 t
  show V c main_arg3 (((cfg2.win 2).blk t).view.emb (ix2 r k)) = _
  congr 1; funext a; apply Fin.ext
  match a with
  | ⟨0, _⟩ => show win2_2.index t (0 : Fin 2) * 256 + 1 * r.val = t.val * 256 + r.val; omega
  | ⟨1, _⟩ => show win2_2.index t (1 : Fin 2) * 1024 + 1 * k.val = k.val; omega

set_option maxHeartbeats 400000 in
/-- Point `t` of launch 2 stores, at every index of its block, the node kernel's array of the entry contents at the
    block's place in the array: rows `256 t … 256 t + 255`. -/
theorem stored2 (hpay : ∀ (i : grid2.Coords) (he : Mat 4096 16) (p : Mat 1 16) (trows : Mat 256 4096) (tb : Mat 1024 4096) (adj : Mat 256 1024) (hv : Mat 1024 128) (w : Mat 128 128) (b : Mat 1 128) (r : Fin 256) (j : Fin 128),
      k2_pay1 (F := Ideal) (k2_pay2 i he p trows tb adj hv w) b (ix2 r j) = (∑ c : Fin 1024, ((if c.val = r.val + (i 0).val * 256 then (1 : EReal) else ∑ e : Fin 4096, (trows (ix2 r e) * gate he p e) * tb (ix2 c e)) * adj (ix2 r c)) * (∑ k : Fin 128, hv (ix2 c k) * w (ix2 k j))) + b (ix2 (0 : Fin 1) j))
    (c : Dev nD) (t : Fin cfg2.N) (y : S256x128.Idx) :
    k2_pay1 (F := Ideal) (k2_pay2 (grid2.coords t) (iblk2 V c 1 t) (iblk2 V c 7 t) (iblk2 V c 3 t) (iblk2 V c 4 t) (iblk2 V c 2 t) (iblk2 V c 0 t) (iblk2 V c 5 t)) (iblk2 V c 6 t) y
      = nodeK (V c main_v2) (V c main_v4) (V c main_arg3) (V c main_arg4) (V c main_v0) (V c main_arg11) (V c main_v5) (V c main_arg13) (((cfg2.win 8).blk t).view.emb y) := by
  have h4 : t.val < 4 := t.isLt
  obtain ⟨e20, e21, e30, e31, e80, e81, e00, e01, e10, e11, e40, e41, e50, e51, e60, e61, e70, e71, ec⟩ := idx_facts2 t
  obtain ⟨r, j, rfl⟩ : ∃ (r : Fin 256) (j : Fin 128), y = ix2 r j := ⟨y 0, y 1, eq_ix2 y⟩
  have hlt : t.val * 256 + r.val < 1024 := by have := r.isLt; omega
  rw [blk2_1 V c t, blk2_7 V c t, blk2_4 V c t, blk2_0 V c t, blk2_5 V c t, blk2_6 V c t]
  refine (node_block_at
    (fun he p trows tb adj hv w b => k2_pay1 (F := Ideal) (k2_pay2 (grid2.coords t) he p trows tb adj hv w) b)
    ((grid2.coords t) 0).val t.val ec h4
    (fun he p trows tb adj hv w b r j => hpay (grid2.coords t) he p trows tb adj hv w b r j)
    (V c main_v2) (V c main_v4) (V c main_arg3) (V c main_arg4) (V c main_v0) (V c main_arg11) (V c main_v5) (V c main_arg13)
    (iblk2 V c 3 t) (iblk2 V c 2 t) (fun r e h => blk2_3 V c t r e h) (fun r k h => blk2_2 V c t r k h) r j hlt).trans ?_
  exact (nodeK_at (V c main_v2) (V c main_v4) (V c main_arg3) (V c main_arg4) (V c main_v0) (V c main_arg11) (V c main_v5) (V c main_arg13)
    (((cfg2.win 8).blk t).view.emb (ix2 r j)) ⟨t.val * 256 + r.val, hlt⟩ j
    (by show win2_8.index t (0 : Fin 2) * 256 + 1 * r.val = t.val * 256 + r.val; omega)
    (by show win2_8.index t (1 : Fin 2) * 128 + 1 * j.val = j.val; omega)).symm

/-- What point `t` of launch 2 writes back is its block of the node kernel's array of the entry contents. -/
theorem flushed2 (hpay : ∀ (i : grid2.Coords) (he : Mat 4096 16) (p : Mat 1 16) (trows : Mat 256 4096) (tb : Mat 1024 4096) (adj : Mat 256 1024) (hv : Mat 1024 128) (w : Mat 128 128) (b : Mat 1 128) (r : Fin 256) (j : Fin 128),
      k2_pay1 (F := Ideal) (k2_pay2 i he p trows tb adj hv w) b (ix2 r j) = (∑ c : Fin 1024, ((if c.val = r.val + (i 0).val * 256 then (1 : EReal) else ∑ e : Fin 4096, (trows (ix2 r e) * gate he p e) * tb (ix2 c e)) * adj (ix2 r c)) * (∑ k : Fin 128, hv (ix2 c k) * w (ix2 k j))) + b (ix2 (0 : Fin 1) j))
    (c : Dev nD) (t : Fin cfg2.N) :
    (dat2 V c).flushed 8 t = ((cfg2.win 8).blk t).view.read (Elt Ideal) (nodeK (V c main_v2) (V c main_v4) (V c main_arg3) (V c main_arg4) (V c main_v0) (V c main_arg11) (V c main_v5) (V c main_arg13)) := by
  show (cfg2.win 8).cut (grid2.coords t) ((dat2 V c).after 8 t) = _
  rw [after2_8]
  unfold out2_8
  rw [View.canon_unit_zero hz]
  simp only [View.ld_unit_zero (S := S1024x128) hz, View.ld_unit_zero (S := S4096x16) hz, View.ld_unit_zero (S := S256x1024) hz, View.ld_unit_zero (S := S256x4096) hz, View.ld_unit_zero (S := S1024x4096) hz, View.ld_unit_zero (S := S128x128) hz, View.ld_unit_zero (S := S1x128) hz, View.ld_unit_zero (S := S1x16) hz]
  funext y
  exact stored2 V hpay c t y

/-- An index of the result array is in point `t`'s block iff each coordinate is in the block's range on its axis. -/
theorem mem_blk2 (t : Fin cfg2.N) (i : S1024x128.Idx) :
    i ∈ ((cfg2.win 8).blk t).view.set ↔ ∀ a : Fin 2, win2_8.index t a * S256x128.size a ≤ (i a).val ∧ (i a).val < win2_8.index t a * S256x128.size a + S256x128.size a := by
  show i ∈ ((View.whole main_v6).slice (win2_8.rect t)).set ↔ _
  rw [View.set_slice_whole, Rect.mem_set_unit]
  exact Iff.rfl

/-- The output blocks tile the result array: row `i 0` is in the block of point `(i 0) / 256`, which is written back. -/
theorem cover2 (i : S1024x128.Idx) : ∃ t : Fin cfg2.N, (cfg2.win 8).flush t = true ∧ i ∈ ((cfg2.win 8).blk t).view.set := by
  have hi0 : (i 0).val < 1024 := (i 0).isLt
  have hi1 : (i 1).val < 128 := (i 1).isLt
  have hq : (i 0).val / 256 < 4 := by omega
  refine ⟨⟨(i 0).val / 256, hq⟩, flush2_8 _, ?_⟩
  rw [mem_blk2]
  obtain ⟨e20, e21, e30, e31, e80, e81, e00, e01, e10, e11, e40, e41, e50, e51, e60, e61, e70, e71, ec⟩ := idx_facts2 ⟨(i 0).val / 256, hq⟩
  have e80' : win2_8.index ⟨(i 0).val / 256, hq⟩ (0 : Fin 2) = (i 0).val / 256 := e80
  intro a
  match a with
  | ⟨0, _⟩ => show win2_8.index ⟨(i 0).val / 256, hq⟩ (0 : Fin 2) * 256 ≤ (i 0).val ∧ (i 0).val < win2_8.index ⟨(i 0).val / 256, hq⟩ (0 : Fin 2) * 256 + 256; omega
  | ⟨1, _⟩ => show win2_8.index ⟨(i 0).val / 256, hq⟩ (1 : Fin 2) * 128 ≤ (i 1).val ∧ (i 1).val < win2_8.index ⟨(i 0).val / 256, hq⟩ (1 : Fin 2) * 128 + 128; omega

/-- After launch 2 its result array is the node kernel's array of the contents the launch was entered with. -/
theorem region2_array_of (hpay : ∀ (i : grid2.Coords) (he : Mat 4096 16) (p : Mat 1 16) (trows : Mat 256 4096) (tb : Mat 1024 4096) (adj : Mat 256 1024) (hv : Mat 1024 128) (w : Mat 128 128) (b : Mat 1 128) (r : Fin 256) (j : Fin 128),
      k2_pay1 (F := Ideal) (k2_pay2 i he p trows tb adj hv w) b (ix2 r j) = (∑ c : Fin 1024, ((if c.val = r.val + (i 0).val * 256 then (1 : EReal) else ∑ e : Fin 4096, (trows (ix2 r e) * gate he p e) * tb (ix2 c e)) * adj (ix2 r c)) * (∑ k : Fin 128, hv (ix2 c k) * w (ix2 k j))) + b (ix2 (0 : Fin 1) j)) (c : Dev nD) :
    (dat2 V c).arrAt 8 cfg2.N = nodeK (V c main_v2) (V c main_v4) (V c main_arg3) (V c main_arg4) (V c main_v0) (V c main_arg11) (V c main_v5) (V c main_arg13) :=
  (dat2 V c).arrAt_eq_of_cover 8 _ (fun t _ => flushed2 V hpay c t) cover2

end Cert.KernelIdeal.Regions

end
-- ==== Proof.KernelRun.lean ====
/-
  The idealized kernel's run, with its final memory read whole.

  The program is three kernel launches among host operations. Its run is stated by the contents of every buffer at
  each boundary between segments: `W0` at launch, `W1` after the first host stretch, `W2` after the first launch (its
  arrays at what the launch's write-backs leave, every other buffer as entered), and so on to `W6` after the third
  launch. Every weakly fair execution terminates, faults nowhere, and ends with every buffer that outlives a launch at
  its `W6` contents — the result array among them.
-/
import proofs.«121829_g36584531428114_cont_8to1_b_754_6_alg».proof.Proof.FrameKernelIdeal

set_option maxRecDepth 16384

noncomputable section

namespace Cert.KernelIdeal.RunP

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in every final state each buffer that is not
    scoped to a launch holds its contents at the last boundary, `W6`. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run, read at the result array and at the fourteen arguments: the result holds `W6`'s contents, the
    arguments are as launched. -/
theorem run_result : θ_run defs (onTc (τ := τ) (main (F := F))) ⟨m, fun _ => 0, ρ⟩ (fun r => ∀ c : Dev nD,
      r.2.mem ((c.tc : Thread nD τ).loc main_v6) = W6 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨h c _ (mem_uc main_v6 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)
    (run_held m ρ)

end Cert.KernelIdeal.RunP

end
-- ==== Proof.KernelFold.lean ====
/-
  The three launches chained: what the last launch leaves in its result array, as a function of the launch contents.

  Between the launch and the return the program's buffers pass six boundaries: a stretch of host operations (a format
  conversion of the incidence matrix, a reshape of a bias vector to a one-row matrix), then a launch, three times over.
  A buffer that a stretch does not write, and a buffer that is no array of a launch or only an input of it, holds after
  the boundary what it held before; so every argument reads as launched at every boundary. The converted copy of the
  incidence matrix is the matrix (a format change is the identity on extended reals), a reshaped bias is the one-row
  matrix `asRow` of the vector, and each launch's result array is the layer function of its operands' arrays (the three
  hypotheses). Reading the operands of each launch back through the earlier boundaries gives, in turn, the first node layer
  on the inputs, the edge layer on it, and the second node layer on both: the network of the specification.
-/
import proofs.«121829_g36584531428114_cont_8to1_b_754_6_alg».proof.Proof.FrameKernelIdeal
import proofs.«121829_g36584531428114_cont_8to1_b_754_6_alg».proof.Proof.KernelLayers
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Fold

open Cert.KernelIdeal Cert.KernelIdeal.Gen Cert.KernelIdeal.GenP Cert.GraphLayers
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-- A buffer that no operation of a host stretch writes holds after the stretch what it held before. -/
macro "host_skip" b:term : tactic =>
  `(tactic| exact StableHlo.after_of_forall_not_mem (b := Proc.devRef .tc $b) _ _ (List.forall_iff_forall_mem.mp (by
      simp only [hostOps0, hostOps1, hostOps2, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- A vector reshaped to a one-row matrix is the row `asRow` makes of it. -/
theorem shapeCast_asRow {n : Nat} (x : Vct n) (h : (⟨1, ![n]⟩ : Shape).ShapeCasts ⟨2, ![1, n]⟩) :
    shapeCast ⟨2, ![1, n]⟩ x h = asRow x := by
  funext i
  obtain ⟨u, j, rfl⟩ : ∃ (u : Fin 1) (j : Fin n), i = ix2 u j := ⟨i 0, i 1, eq_ix2 i⟩
  exact (shapeCast_a_1a_apply x h u j).trans rfl

/-- The node kernel's array depends on its eight operands only. -/
theorem nodeK_congr {Hv Hv' : Mat 1024 128} {He He' : Mat 4096 16} {adj adj' : Mat 1024 1024} {T T' Tb Tb' : Mat 1024 4096}
    {W W' : Mat 128 128} {brow brow' : Mat 1 128} {p p' : Mat 1 16}
    (e1 : Hv = Hv') (e2 : He = He') (e3 : adj = adj') (e4 : T = T') (e5 : Tb = Tb') (e6 : W = W') (e7 : brow = brow')
    (e8 : p = p') : nodeK Hv He adj T Tb W brow p = nodeK Hv' He' adj' T' Tb' W' brow' p' := by
  rw [e1, e2, e3, e4, e5, e6, e7, e8]

/-- The edge kernel's array depends on its eight operands only. -/
theorem edgeK_congr {Hv Hv' : Mat 1024 128} {He He' : Mat 4096 16} {adj adj' : Mat 4096 4096} {T T' Tb Tb' : Mat 1024 4096}
    {W W' : Mat 16 16} {brow brow' : Mat 1 16} {p p' : Mat 1 128}
    (e1 : Hv = Hv') (e2 : He = He') (e3 : adj = adj') (e4 : T = T') (e5 : Tb = Tb') (e6 : W = W') (e7 : brow = brow')
    (e8 : p = p') : edgeK Hv He adj T Tb W brow p = edgeK Hv' He' adj' T' Tb' W' brow' p' := by
  rw [e1, e2, e3, e4, e5, e6, e7, e8]

theorem W1_arg0 :
    W1 m ρ c (Proc.devRef .tc main_arg0) = (m ((c : Thread nD τ).loc main_arg0)) :=
  (by host_skip main_arg0 : W1 m ρ c (Proc.devRef .tc main_arg0) = W0 m ρ c (Proc.devRef .tc main_arg0)).trans rfl

theorem W1_arg1 :
    W1 m ρ c (Proc.devRef .tc main_arg1) = (m ((c : Thread nD τ).loc main_arg1)) :=
  (by host_skip main_arg1 : W1 m ρ c (Proc.devRef .tc main_arg1) = W0 m ρ c (Proc.devRef .tc main_arg1)).trans rfl

theorem W1_arg3 :
    W1 m ρ c (Proc.devRef .tc main_arg3) = (m ((c : Thread nD τ).loc main_arg3)) :=
  (by host_skip main_arg3 : W1 m ρ c (Proc.devRef .tc main_arg3) = W0 m ρ c (Proc.devRef .tc main_arg3)).trans rfl

theorem W1_arg4 :
    W1 m ρ c (Proc.devRef .tc main_arg4) = (m ((c : Thread nD τ).loc main_arg4)) :=
  (by host_skip main_arg4 : W1 m ρ c (Proc.devRef .tc main_arg4) = W0 m ρ c (Proc.devRef .tc main_arg4)).trans rfl

theorem W1_v0 :
    (W1 m ρ c (Proc.devRef .tc main_v0) : S1024x4096.Idx → EReal) = (m ((c : Thread nD τ).loc main_arg4)) := by
  dsimp only [W1, hostOps0]; after_results; rfl

theorem W1_arg5 :
    W1 m ρ c (Proc.devRef .tc main_arg5) = (m ((c : Thread nD τ).loc main_arg5)) :=
  (by host_skip main_arg5 : W1 m ρ c (Proc.devRef .tc main_arg5) = W0 m ρ c (Proc.devRef .tc main_arg5)).trans rfl

theorem W1_v1 :
    (W1 m ρ c (Proc.devRef .tc main_v1) : S1x128.Idx → EReal) = (asRow (m ((c : Thread nD τ).loc main_arg6))) := by
  have e : (W1 m ρ c (Proc.devRef .tc main_v1) : S1x128.Idx → EReal)
      = shapeCast S1x128 ((m ((c : Thread nD τ).loc main_arg6)) : S128.Idx → EReal) shapeCasts_S128_S1x128 := by
    dsimp only [W1, hostOps0]; after_results; rfl
  exact e.trans (shapeCast_asRow _ _)

theorem W1_arg7 :
    W1 m ρ c (Proc.devRef .tc main_arg7) = (m ((c : Thread nD τ).loc main_arg7)) :=
  (by host_skip main_arg7 : W1 m ρ c (Proc.devRef .tc main_arg7) = W0 m ρ c (Proc.devRef .tc main_arg7)).trans rfl

theorem W2_v2
    (h0 : ∀ V : (c : Dev nD) → (b : Ref sig .tc) → Buf (Elt Ideal) ((c : Thread nD τ).loc b),
      (dat0 V c).arrAt 8 cfg0.N = nodeK (V c main_arg0) (V c main_arg1) (V c main_arg3) (V c main_arg4) (V c main_v0) (V c main_arg5) (V c main_v1) (V c main_arg7)) :
    (W2 m ρ c (Proc.devRef .tc main_v2) : S1024x128.Idx → EReal) = (nodeLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  calc (W2 m ρ c (Proc.devRef .tc main_v2) : S1024x128.Idx → EReal)
    _ = (dat0 (V1 m ρ) c).arrAt 8 cfg0.N := W2_arr m ρ c 8
    _ = nodeK (V1 m ρ c main_arg0) (V1 m ρ c main_arg1) (V1 m ρ c main_arg3) (V1 m ρ c main_arg4) (V1 m ρ c main_v0) (V1 m ρ c main_arg5) (V1 m ρ c main_v1) (V1 m ρ c main_arg7) := h0 (V1 m ρ)
    _ = nodeK (m ((c : Thread nD τ).loc main_arg0)) (m ((c : Thread nD τ).loc main_arg1)) (m ((c : Thread nD τ).loc main_arg3)) (m ((c : Thread nD τ).loc main_arg4)) (m ((c : Thread nD τ).loc main_arg4)) (m ((c : Thread nD τ).loc main_arg5)) (asRow (m ((c : Thread nD τ).loc main_arg6))) (m ((c : Thread nD τ).loc main_arg7)) :=
      nodeK_congr (W1_arg0 m ρ c) (W1_arg1 m ρ c) (W1_arg3 m ρ c) (W1_arg4 m ρ c) (W1_v0 m ρ c) (W1_arg5 m ρ c) (W1_v1 m ρ c) (W1_arg7 m ρ c)
    _ = (nodeLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := nodeK_eq _ _ _ _ _ _ _

theorem W3_v2
    (h0 : ∀ V : (c : Dev nD) → (b : Ref sig .tc) → Buf (Elt Ideal) ((c : Thread nD τ).loc b),
      (dat0 V c).arrAt 8 cfg0.N = nodeK (V c main_arg0) (V c main_arg1) (V c main_arg3) (V c main_arg4) (V c main_v0) (V c main_arg5) (V c main_v1) (V c main_arg7)) :
    (W3 m ρ c (Proc.devRef .tc main_v2) : S1024x128.Idx → EReal) = (nodeLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (by host_skip main_v2 : W3 m ρ c (Proc.devRef .tc main_v2) = W2 m ρ c (Proc.devRef .tc main_v2)).trans (W2_v2 m ρ c h0)

theorem W4_v2
    (h0 : ∀ V : (c : Dev nD) → (b : Ref sig .tc) → Buf (Elt Ideal) ((c : Thread nD τ).loc b),
      (dat0 V c).arrAt 8 cfg0.N = nodeK (V c main_arg0) (V c main_arg1) (V c main_arg3) (V c main_arg4) (V c main_v0) (V c main_arg5) (V c main_v1) (V c main_arg7)) :
    (W4 m ρ c (Proc.devRef .tc main_v2) : S1024x128.Idx → EReal) = (nodeLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  ((W4_arr m ρ c 0).trans (((dat1 (V3 m ρ) c).arrAt_in 0 rfl _).trans (A_eq1 (V3 m ρ) c 0))).trans (W3_v2 m ρ c h0)

theorem W5_v2
    (h0 : ∀ V : (c : Dev nD) → (b : Ref sig .tc) → Buf (Elt Ideal) ((c : Thread nD τ).loc b),
      (dat0 V c).arrAt 8 cfg0.N = nodeK (V c main_arg0) (V c main_arg1) (V c main_arg3) (V c main_arg4) (V c main_v0) (V c main_arg5) (V c main_v1) (V c main_arg7)) :
    (W5 m ρ c (Proc.devRef .tc main_v2) : S1024x128.Idx → EReal) = (nodeLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (by host_skip main_v2 : W5 m ρ c (Proc.devRef .tc main_v2) = W4 m ρ c (Proc.devRef .tc main_v2)).trans (W4_v2 m ρ c h0)

theorem W2_arg1 :
    W2 m ρ c (Proc.devRef .tc main_arg1) = (m ((c : Thread nD τ).loc main_arg1)) :=
  ((W2_arr m ρ c 1).trans (((dat0 (V1 m ρ) c).arrAt_in 1 rfl _).trans (A_eq0 (V1 m ρ) c 1))).trans (W1_arg1 m ρ c)

theorem W3_arg1 :
    W3 m ρ c (Proc.devRef .tc main_arg1) = (m ((c : Thread nD τ).loc main_arg1)) :=
  (by host_skip main_arg1 : W3 m ρ c (Proc.devRef .tc main_arg1) = W2 m ρ c (Proc.devRef .tc main_arg1)).trans (W2_arg1 m ρ c)

theorem W1_arg2 :
    W1 m ρ c (Proc.devRef .tc main_arg2) = (m ((c : Thread nD τ).loc main_arg2)) :=
  (by host_skip main_arg2 : W1 m ρ c (Proc.devRef .tc main_arg2) = W0 m ρ c (Proc.devRef .tc main_arg2)).trans rfl

theorem W2_arg2 :
    W2 m ρ c (Proc.devRef .tc main_arg2) = (m ((c : Thread nD τ).loc main_arg2)) :=
  (W2_of_ne m ρ c main_arg2 (by decide)).trans (W1_arg2 m ρ c)

theorem W3_arg2 :
    W3 m ρ c (Proc.devRef .tc main_arg2) = (m ((c : Thread nD τ).loc main_arg2)) :=
  (by host_skip main_arg2 : W3 m ρ c (Proc.devRef .tc main_arg2) = W2 m ρ c (Proc.devRef .tc main_arg2)).trans (W2_arg2 m ρ c)

theorem W2_arg4 :
    W2 m ρ c (Proc.devRef .tc main_arg4) = (m ((c : Thread nD τ).loc main_arg4)) :=
  ((W2_arr m ρ c 3).trans (((dat0 (V1 m ρ) c).arrAt_in 3 rfl _).trans (A_eq0 (V1 m ρ) c 3))).trans (W1_arg4 m ρ c)

theorem W3_arg4 :
    W3 m ρ c (Proc.devRef .tc main_arg4) = (m ((c : Thread nD τ).loc main_arg4)) :=
  (by host_skip main_arg4 : W3 m ρ c (Proc.devRef .tc main_arg4) = W2 m ρ c (Proc.devRef .tc main_arg4)).trans (W2_arg4 m ρ c)

theorem W2_v0 :
    (W2 m ρ c (Proc.devRef .tc main_v0) : S1024x4096.Idx → EReal) = (m ((c : Thread nD τ).loc main_arg4)) :=
  ((W2_arr m ρ c 4).trans (((dat0 (V1 m ρ) c).arrAt_in 4 rfl _).trans (A_eq0 (V1 m ρ) c 4))).trans (W1_v0 m ρ c)

theorem W3_v0 :
    (W3 m ρ c (Proc.devRef .tc main_v0) : S1024x4096.Idx → EReal) = (m ((c : Thread nD τ).loc main_arg4)) :=
  (by host_skip main_v0 : W3 m ρ c (Proc.devRef .tc main_v0) = W2 m ρ c (Proc.devRef .tc main_v0)).trans (W2_v0 m ρ c)

theorem W1_arg8 :
    W1 m ρ c (Proc.devRef .tc main_arg8) = (m ((c : Thread nD τ).loc main_arg8)) :=
  (by host_skip main_arg8 : W1 m ρ c (Proc.devRef .tc main_arg8) = W0 m ρ c (Proc.devRef .tc main_arg8)).trans rfl

theorem W2_arg8 :
    W2 m ρ c (Proc.devRef .tc main_arg8) = (m ((c : Thread nD τ).loc main_arg8)) :=
  (W2_of_ne m ρ c main_arg8 (by decide)).trans (W1_arg8 m ρ c)

theorem W3_arg8 :
    W3 m ρ c (Proc.devRef .tc main_arg8) = (m ((c : Thread nD τ).loc main_arg8)) :=
  (by host_skip main_arg8 : W3 m ρ c (Proc.devRef .tc main_arg8) = W2 m ρ c (Proc.devRef .tc main_arg8)).trans (W2_arg8 m ρ c)

theorem W1_arg9 :
    W1 m ρ c (Proc.devRef .tc main_arg9) = (m ((c : Thread nD τ).loc main_arg9)) :=
  (by host_skip main_arg9 : W1 m ρ c (Proc.devRef .tc main_arg9) = W0 m ρ c (Proc.devRef .tc main_arg9)).trans rfl

theorem W2_arg9 :
    W2 m ρ c (Proc.devRef .tc main_arg9) = (m ((c : Thread nD τ).loc main_arg9)) :=
  (W2_of_ne m ρ c main_arg9 (by decide)).trans (W1_arg9 m ρ c)

theorem W3_v3 :
    (W3 m ρ c (Proc.devRef .tc main_v3) : S1x16.Idx → EReal) = (asRow (m ((c : Thread nD τ).loc main_arg9))) := by
  have e : (W3 m ρ c (Proc.devRef .tc main_v3) : S1x16.Idx → EReal)
      = shapeCast S1x16 (W2 m ρ c (Proc.devRef .tc main_arg9) : S16.Idx → EReal) shapeCasts_S16_S1x16 := by
    dsimp only [W3, hostOps1]; after_results; rfl
  rw [e, W2_arg9 m ρ c]
  exact shapeCast_asRow _ _

theorem W1_arg10 :
    W1 m ρ c (Proc.devRef .tc main_arg10) = (m ((c : Thread nD τ).loc main_arg10)) :=
  (by host_skip main_arg10 : W1 m ρ c (Proc.devRef .tc main_arg10) = W0 m ρ c (Proc.devRef .tc main_arg10)).trans rfl

theorem W2_arg10 :
    W2 m ρ c (Proc.devRef .tc main_arg10) = (m ((c : Thread nD τ).loc main_arg10)) :=
  (W2_of_ne m ρ c main_arg10 (by decide)).trans (W1_arg10 m ρ c)

theorem W3_arg10 :
    W3 m ρ c (Proc.devRef .tc main_arg10) = (m ((c : Thread nD τ).loc main_arg10)) :=
  (by host_skip main_arg10 : W3 m ρ c (Proc.devRef .tc main_arg10) = W2 m ρ c (Proc.devRef .tc main_arg10)).trans (W2_arg10 m ρ c)

theorem W4_v4
    (h0 : ∀ V : (c : Dev nD) → (b : Ref sig .tc) → Buf (Elt Ideal) ((c : Thread nD τ).loc b),
      (dat0 V c).arrAt 8 cfg0.N = nodeK (V c main_arg0) (V c main_arg1) (V c main_arg3) (V c main_arg4) (V c main_v0) (V c main_arg5) (V c main_v1) (V c main_arg7))
    (h1 : ∀ V : (c : Dev nD) → (b : Ref sig .tc) → Buf (Elt Ideal) ((c : Thread nD τ).loc b),
      (dat1 V c).arrAt 8 cfg1.N = edgeK (V c main_v2) (V c main_arg1) (V c main_arg2) (V c main_arg4) (V c main_v0) (V c main_arg8) (V c main_v3) (V c main_arg10)) :
    (W4 m ρ c (Proc.devRef .tc main_v4) : S4096x16.Idx → EReal) = (edgeLayer (nodeLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg4)) (m ((c : Thread nD τ).loc main_arg8)) (m ((c : Thread nD τ).loc main_arg9)) (m ((c : Thread nD τ).loc main_arg10))) :=
  calc (W4 m ρ c (Proc.devRef .tc main_v4) : S4096x16.Idx → EReal)
    _ = (dat1 (V3 m ρ) c).arrAt 8 cfg1.N := W4_arr m ρ c 8
    _ = edgeK (V3 m ρ c main_v2) (V3 m ρ c main_arg1) (V3 m ρ c main_arg2) (V3 m ρ c main_arg4) (V3 m ρ c main_v0) (V3 m ρ c main_arg8) (V3 m ρ c main_v3) (V3 m ρ c main_arg10) := h1 (V3 m ρ)
    _ = edgeK (nodeLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg4)) (m ((c : Thread nD τ).loc main_arg4)) (m ((c : Thread nD τ).loc main_arg8)) (asRow (m ((c : Thread nD τ).loc main_arg9))) (m ((c : Thread nD τ).loc main_arg10)) :=
      edgeK_congr (W3_v2 m ρ c h0) (W3_arg1 m ρ c) (W3_arg2 m ρ c) (W3_arg4 m ρ c) (W3_v0 m ρ c) (W3_arg8 m ρ c) (W3_v3 m ρ c) (W3_arg10 m ρ c)
    _ = (edgeLayer (nodeLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg4)) (m ((c : Thread nD τ).loc main_arg8)) (m ((c : Thread nD τ).loc main_arg9)) (m ((c : Thread nD τ).loc main_arg10))) := edgeK_eq _ _ _ _ _ _ _

theorem W5_v4
    (h0 : ∀ V : (c : Dev nD) → (b : Ref sig .tc) → Buf (Elt Ideal) ((c : Thread nD τ).loc b),
      (dat0 V c).arrAt 8 cfg0.N = nodeK (V c main_arg0) (V c main_arg1) (V c main_arg3) (V c main_arg4) (V c main_v0) (V c main_arg5) (V c main_v1) (V c main_arg7))
    (h1 : ∀ V : (c : Dev nD) → (b : Ref sig .tc) → Buf (Elt Ideal) ((c : Thread nD τ).loc b),
      (dat1 V c).arrAt 8 cfg1.N = edgeK (V c main_v2) (V c main_arg1) (V c main_arg2) (V c main_arg4) (V c main_v0) (V c main_arg8) (V c main_v3) (V c main_arg10)) :
    (W5 m ρ c (Proc.devRef .tc main_v4) : S4096x16.Idx → EReal) = (edgeLayer (nodeLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg4)) (m ((c : Thread nD τ).loc main_arg8)) (m ((c : Thread nD τ).loc main_arg9)) (m ((c : Thread nD τ).loc main_arg10))) :=
  (by host_skip main_v4 : W5 m ρ c (Proc.devRef .tc main_v4) = W4 m ρ c (Proc.devRef .tc main_v4)).trans (W4_v4 m ρ c h0 h1)

theorem W2_arg3 :
    W2 m ρ c (Proc.devRef .tc main_arg3) = (m ((c : Thread nD τ).loc main_arg3)) :=
  ((W2_arr m ρ c 2).trans (((dat0 (V1 m ρ) c).arrAt_in 2 rfl _).trans (A_eq0 (V1 m ρ) c 2))).trans (W1_arg3 m ρ c)

theorem W3_arg3 :
    W3 m ρ c (Proc.devRef .tc main_arg3) = (m ((c : Thread nD τ).loc main_arg3)) :=
  (by host_skip main_arg3 : W3 m ρ c (Proc.devRef .tc main_arg3) = W2 m ρ c (Proc.devRef .tc main_arg3)).trans (W2_arg3 m ρ c)

theorem W4_arg3 :
    W4 m ρ c (Proc.devRef .tc main_arg3) = (m ((c : Thread nD τ).loc main_arg3)) :=
  (W4_of_ne m ρ c main_arg3 (by decide)).trans (W3_arg3 m ρ c)

theorem W5_arg3 :
    W5 m ρ c (Proc.devRef .tc main_arg3) = (m ((c : Thread nD τ).loc main_arg3)) :=
  (by host_skip main_arg3 : W5 m ρ c (Proc.devRef .tc main_arg3) = W4 m ρ c (Proc.devRef .tc main_arg3)).trans (W4_arg3 m ρ c)

theorem W4_arg4 :
    W4 m ρ c (Proc.devRef .tc main_arg4) = (m ((c : Thread nD τ).loc main_arg4)) :=
  ((W4_arr m ρ c 3).trans (((dat1 (V3 m ρ) c).arrAt_in 3 rfl _).trans (A_eq1 (V3 m ρ) c 3))).trans (W3_arg4 m ρ c)

theorem W5_arg4 :
    W5 m ρ c (Proc.devRef .tc main_arg4) = (m ((c : Thread nD τ).loc main_arg4)) :=
  (by host_skip main_arg4 : W5 m ρ c (Proc.devRef .tc main_arg4) = W4 m ρ c (Proc.devRef .tc main_arg4)).trans (W4_arg4 m ρ c)

theorem W4_v0 :
    (W4 m ρ c (Proc.devRef .tc main_v0) : S1024x4096.Idx → EReal) = (m ((c : Thread nD τ).loc main_arg4)) :=
  ((W4_arr m ρ c 4).trans (((dat1 (V3 m ρ) c).arrAt_in 4 rfl _).trans (A_eq1 (V3 m ρ) c 4))).trans (W3_v0 m ρ c)

theorem W5_v0 :
    (W5 m ρ c (Proc.devRef .tc main_v0) : S1024x4096.Idx → EReal) = (m ((c : Thread nD τ).loc main_arg4)) :=
  (by host_skip main_v0 : W5 m ρ c (Proc.devRef .tc main_v0) = W4 m ρ c (Proc.devRef .tc main_v0)).trans (W4_v0 m ρ c)

theorem W1_arg11 :
    W1 m ρ c (Proc.devRef .tc main_arg11) = (m ((c : Thread nD τ).loc main_arg11)) :=
  (by host_skip main_arg11 : W1 m ρ c (Proc.devRef .tc main_arg11) = W0 m ρ c (Proc.devRef .tc main_arg11)).trans rfl

theorem W2_arg11 :
    W2 m ρ c (Proc.devRef .tc main_arg11) = (m ((c : Thread nD τ).loc main_arg11)) :=
  (W2_of_ne m ρ c main_arg11 (by decide)).trans (W1_arg11 m ρ c)

theorem W3_arg11 :
    W3 m ρ c (Proc.devRef .tc main_arg11) = (m ((c : Thread nD τ).loc main_arg11)) :=
  (by host_skip main_arg11 : W3 m ρ c (Proc.devRef .tc main_arg11) = W2 m ρ c (Proc.devRef .tc main_arg11)).trans (W2_arg11 m ρ c)

theorem W4_arg11 :
    W4 m ρ c (Proc.devRef .tc main_arg11) = (m ((c : Thread nD τ).loc main_arg11)) :=
  (W4_of_ne m ρ c main_arg11 (by decide)).trans (W3_arg11 m ρ c)

theorem W5_arg11 :
    W5 m ρ c (Proc.devRef .tc main_arg11) = (m ((c : Thread nD τ).loc main_arg11)) :=
  (by host_skip main_arg11 : W5 m ρ c (Proc.devRef .tc main_arg11) = W4 m ρ c (Proc.devRef .tc main_arg11)).trans (W4_arg11 m ρ c)

theorem W1_arg12 :
    W1 m ρ c (Proc.devRef .tc main_arg12) = (m ((c : Thread nD τ).loc main_arg12)) :=
  (by host_skip main_arg12 : W1 m ρ c (Proc.devRef .tc main_arg12) = W0 m ρ c (Proc.devRef .tc main_arg12)).trans rfl

theorem W2_arg12 :
    W2 m ρ c (Proc.devRef .tc main_arg12) = (m ((c : Thread nD τ).loc main_arg12)) :=
  (W2_of_ne m ρ c main_arg12 (by decide)).trans (W1_arg12 m ρ c)

theorem W3_arg12 :
    W3 m ρ c (Proc.devRef .tc main_arg12) = (m ((c : Thread nD τ).loc main_arg12)) :=
  (by host_skip main_arg12 : W3 m ρ c (Proc.devRef .tc main_arg12) = W2 m ρ c (Proc.devRef .tc main_arg12)).trans (W2_arg12 m ρ c)

theorem W4_arg12 :
    W4 m ρ c (Proc.devRef .tc main_arg12) = (m ((c : Thread nD τ).loc main_arg12)) :=
  (W4_of_ne m ρ c main_arg12 (by decide)).trans (W3_arg12 m ρ c)

theorem W5_v5 :
    (W5 m ρ c (Proc.devRef .tc main_v5) : S1x128.Idx → EReal) = (asRow (m ((c : Thread nD τ).loc main_arg12))) := by
  have e : (W5 m ρ c (Proc.devRef .tc main_v5) : S1x128.Idx → EReal)
      = shapeCast S1x128 (W4 m ρ c (Proc.devRef .tc main_arg12) : S128.Idx → EReal) shapeCasts_S128_S1x128 := by
    dsimp only [W5, hostOps2]; after_results; rfl
  rw [e, W4_arg12 m ρ c]
  exact shapeCast_asRow _ _

theorem W1_arg13 :
    W1 m ρ c (Proc.devRef .tc main_arg13) = (m ((c : Thread nD τ).loc main_arg13)) :=
  (by host_skip main_arg13 : W1 m ρ c (Proc.devRef .tc main_arg13) = W0 m ρ c (Proc.devRef .tc main_arg13)).trans rfl

theorem W2_arg13 :
    W2 m ρ c (Proc.devRef .tc main_arg13) = (m ((c : Thread nD τ).loc main_arg13)) :=
  (W2_of_ne m ρ c main_arg13 (by decide)).trans (W1_arg13 m ρ c)

theorem W3_arg13 :
    W3 m ρ c (Proc.devRef .tc main_arg13) = (m ((c : Thread nD τ).loc main_arg13)) :=
  (by host_skip main_arg13 : W3 m ρ c (Proc.devRef .tc main_arg13) = W2 m ρ c (Proc.devRef .tc main_arg13)).trans (W2_arg13 m ρ c)

theorem W4_arg13 :
    W4 m ρ c (Proc.devRef .tc main_arg13) = (m ((c : Thread nD τ).loc main_arg13)) :=
  (W4_of_ne m ρ c main_arg13 (by decide)).trans (W3_arg13 m ρ c)

theorem W5_arg13 :
    W5 m ρ c (Proc.devRef .tc main_arg13) = (m ((c : Thread nD τ).loc main_arg13)) :=
  (by host_skip main_arg13 : W5 m ρ c (Proc.devRef .tc main_arg13) = W4 m ρ c (Proc.devRef .tc main_arg13)).trans (W4_arg13 m ρ c)

/-- The three launches chained: the last launch's result array is the three stacked layers on the launch contents. -/
theorem result_eq
    (h0 : ∀ V : (c : Dev nD) → (b : Ref sig .tc) → Buf (Elt Ideal) ((c : Thread nD τ).loc b),
      (dat0 V c).arrAt 8 cfg0.N = nodeK (V c main_arg0) (V c main_arg1) (V c main_arg3) (V c main_arg4) (V c main_v0) (V c main_arg5) (V c main_v1) (V c main_arg7))
    (h1 : ∀ V : (c : Dev nD) → (b : Ref sig .tc) → Buf (Elt Ideal) ((c : Thread nD τ).loc b),
      (dat1 V c).arrAt 8 cfg1.N = edgeK (V c main_v2) (V c main_arg1) (V c main_arg2) (V c main_arg4) (V c main_v0) (V c main_arg8) (V c main_v3) (V c main_arg10))
    (h2 : ∀ V : (c : Dev nD) → (b : Ref sig .tc) → Buf (Elt Ideal) ((c : Thread nD τ).loc b),
      (dat2 V c).arrAt 8 cfg2.N = nodeK (V c main_v2) (V c main_v4) (V c main_arg3) (V c main_arg4) (V c main_v0) (V c main_arg11) (V c main_v5) (V c main_arg13)) :
    W6 m ρ c (Proc.devRef .tc main_v6) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  calc (W6 m ρ c (Proc.devRef .tc main_v6) : S1024x128.Idx → EReal)
    _ = (dat2 (V5 m ρ) c).arrAt 8 cfg2.N := W6_arr m ρ c 8
    _ = nodeK (V5 m ρ c main_v2) (V5 m ρ c main_v4) (V5 m ρ c main_arg3) (V5 m ρ c main_arg4) (V5 m ρ c main_v0) (V5 m ρ c main_arg11) (V5 m ρ c main_v5) (V5 m ρ c main_arg13) := h2 (V5 m ρ)
    _ = nodeK (nodeLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (edgeLayer (nodeLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg4)) (m ((c : Thread nD τ).loc main_arg8)) (m ((c : Thread nD τ).loc main_arg9)) (m ((c : Thread nD τ).loc main_arg10))) (m ((c : Thread nD τ).loc main_arg3)) (m ((c : Thread nD τ).loc main_arg4)) (m ((c : Thread nD τ).loc main_arg4)) (m ((c : Thread nD τ).loc main_arg11)) (asRow (m ((c : Thread nD τ).loc main_arg12))) (m ((c : Thread nD τ).loc main_arg13)) :=
      nodeK_congr (W5_v2 m ρ c h0) (W5_v4 m ρ c h0 h1) (W5_arg3 m ρ c) (W5_arg4 m ρ c) (W5_v0 m ρ c) (W5_arg11 m ρ c) (W5_v5 m ρ c) (W5_arg13 m ρ c)
    _ = nodeLayer (nodeLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (edgeLayer (nodeLayer (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1)) (m ((c : Thread nD τ).loc main_arg2)) (m ((c : Thread nD τ).loc main_arg4)) (m ((c : Thread nD τ).loc main_arg8)) (m ((c : Thread nD τ).loc main_arg9)) (m ((c : Thread nD τ).loc main_arg10))) (m ((c : Thread nD τ).loc main_arg3)) (m ((c : Thread nD τ).loc main_arg4)) (m ((c : Thread nD τ).loc main_arg11)) (m ((c : Thread nD τ).loc main_arg12)) (m ((c : Thread nD τ).loc main_arg13)) := nodeK_eq _ _ _ _ _ _ _
    _ = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := rfl

end Cert.KernelIdeal.Fold

end
-- ==== Proof.ReferenceLayers.lean ====
/-
  The printed reference, read index by index, is the three stacked graph-convolution layers of GraphLayers.

  Each layer of the reference is the same chain of array operations: a gate vector (a matrix against the transposed gate
  row, reshaped to a vector and broadcast along the rows), the multiplier (the incidence matrix scaled by the gate, against
  the incidence matrix transposed), the diagonal indicator (row index compared with column index, the bit read as a
  number), the masked multiplier in its arithmetic form `eye + (1 - eye) · multiplier`, the entrywise product with the
  adjacency, and the product with `features · weight` plus the bias broadcast down the rows.

  Every operation is read at an index `ix2 r c` from its operands at an index; the composed index maps are identified
  with `ix2` / `ix1` coordinate by coordinate; the indicator comes out as `if c = r then 1 else 0`, so the arithmetic
  mask is the selection for every extended real (`mask_arith`), with no finiteness hypothesis. A later layer never opens
  an earlier one: where its chain reaches the earlier layer's array, that array is rewritten to the layer function and
  treated as an arbitrary array from there on.
-/
import proofs.«121829_g36584531428114_cont_8to1_b_754_6_alg».proof.Proof.Gen.ReferenceIdeal.Read
import proofs.«121829_g36584531428114_cont_8to1_b_754_6_alg».proof.Proof.GraphLayers
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx Cert.GraphLayers

/-- The diagonal indicator as the printed integer program computes it: row index plus zero, compared with the
    column index, the bit read as an unsigned number. -/
theorem eye_val (r c : Nat) (hr : r < 2 ^ 32) (hc : c < 2 ^ 32) :
    (FloatOps.uitofp (F := Ideal) .f32 (IntOp.cmpi .eq (IntOp.addi (BitVec.ofNat 32 r) 0#32) (BitVec.ofNat 32 c)) : EReal)
      = if c = r then 1 else 0 := by
  show (((BitVec.ofBool (BitVec.ofNat 32 r + 0#32 == BitVec.ofNat 32 c)).toNat : ℝ) : EReal) = _
  rw [BitVec.add_zero]
  by_cases h : c = r
  · subst h; simp
  · have hne : ¬ (BitVec.ofNat 32 r = BitVec.ofNat 32 c) := by
      intro he
      have := congrArg BitVec.toNat he
      simp only [BitVec.toNat_ofNat] at this
      rw [Nat.mod_eq_of_lt hr, Nat.mod_eq_of_lt hc] at this
      exact h this.symm
    simp [h, hne]

/-- Two rank-2 indices with the same coordinates (a quotient by one is the number itself). -/
macro "idx2_eq" : tactic =>
  `(tactic| (funext a; match a with
      | ⟨0, _⟩ => first | rfl | exact Fin.ext (Nat.div_one _)
      | ⟨1, _⟩ => first | rfl | exact Fin.ext (Nat.div_one _)))
/-- Two rank-1 indices with the same coordinate. -/
macro "idx1_eq" : tactic =>
  `(tactic| (funext a; match a with
      | ⟨0, _⟩ => first | rfl | exact Fin.ext (Nat.div_one _)))

variable (x0 : (⟨S1024x128, .f32⟩ : BufTy).Contents (Elt Ideal)) (x1 : (⟨S4096x16, .f32⟩ : BufTy).Contents (Elt Ideal))
  (x2 : (⟨S4096x4096, .f32⟩ : BufTy).Contents (Elt Ideal)) (x3 : (⟨S1024x1024, .f32⟩ : BufTy).Contents (Elt Ideal))
  (x4 : (⟨S1024x4096, .f32⟩ : BufTy).Contents (Elt Ideal)) (x5 : (⟨S128x128, .f32⟩ : BufTy).Contents (Elt Ideal))
  (x6 : (⟨S128, .f32⟩ : BufTy).Contents (Elt Ideal)) (x7 : (⟨S1x16, .f32⟩ : BufTy).Contents (Elt Ideal))
  (x8 : (⟨S16x16, .f32⟩ : BufTy).Contents (Elt Ideal)) (x9 : (⟨S16, .f32⟩ : BufTy).Contents (Elt Ideal))
  (x10 : (⟨S1x128, .f32⟩ : BufTy).Contents (Elt Ideal)) (x11 : (⟨S128x128, .f32⟩ : BufTy).Contents (Elt Ideal))
  (x12 : (⟨S128, .f32⟩ : BufTy).Contents (Elt Ideal)) (x13 : (⟨S1x16, .f32⟩ : BufTy).Contents (Elt Ideal))

theorem v4_at (r : Fin 1024) (e : Fin 4096) :
    Read.val_main_v4 (F := Ideal) x1 x7 (ix2 r e) = gate x1 x7 e := by
  rw [Read.val_main_v4_apply, Read.val_main_v3_apply, Read.val_main_v2_apply, Read.val_main_v1_apply]
  unfold gate
  refine Finset.sum_congr rfl fun k _ => ?_
  rw [Read.val_main_v0_apply]
  refine congrArg₂ (· * ·) (congrArg x1 ?_) (congrArg x7 ?_)
  · idx2_eq
  · idx2_eq

theorem v7_at (r c : Fin 1024) :
    Read.val_main_v7 (F := Ideal) x1 x4 x7 (ix2 r c) = nodeMult x1 x4 x7 r c := by
  rw [Read.val_main_v7_apply]
  unfold nodeMult
  refine Finset.sum_congr rfl fun e _ => ?_
  rw [Read.val_main_v5_apply, Read.val_main_v6_apply]
  have h1 : Read.lidx_main_v7 (ix2 r c) e = ix2 r e := by idx2_eq
  have h2 : Read.idx_main_v6 (Read.ridx_main_v7 (ix2 r c) e) = ix2 c e := by idx2_eq
  rw [h1, h2, v4_at]
  rfl

theorem v13_at (r c : Fin 1024) :
    Read.val_main_v13 (F := Ideal) (ix2 r c) = if c = r then (1 : EReal) else 0 := by
  rw [Read.val_main_v13_apply, Read.val_main_v12_apply, Read.val_main_v11_apply, Read.val_main_v8_apply,
    Read.val_main_v9_apply, Read.val_main_v10_apply, Read.val_main_c_apply]
  have := eye_val r.val c.val (by omega) (by omega)
  simp only [Fin.ext_iff]
  exact this

theorem v17_at (r c : Fin 1024) :
    Read.val_main_v17 (F := Ideal) x1 x4 x7 (ix2 r c) = if c = r then (1 : EReal) else nodeMult x1 x4 x7 r c := by
  rw [Read.val_main_v17_apply, Read.val_main_v16_apply, Read.val_main_v15_apply, Read.val_main_v14_apply,
    Read.val_main_cst_apply, v13_at, v7_at]
  show (if c = r then (1 : EReal) else 0) + (Ideal.ofBits .f32 0x3F800000#32 - (if c = r then (1 : EReal) else 0)) * _ = _
  rw [Ideal.ofBits_one_f32]
  exact mask_arith (c = r) _

theorem v19_at (c : Fin 1024) (j : Fin 128) :
    Read.val_main_v19 (F := Ideal) x0 x5 (ix2 c j) = ∑ k : Fin 128, x0 (ix2 c k) * x5 (ix2 k j) := by
  rw [Read.val_main_v19_apply]
  refine Finset.sum_congr rfl fun k _ => ?_
  refine congrArg₂ (· * ·) (congrArg x0 ?_) (congrArg x5 ?_)
  · idx2_eq
  · idx2_eq

theorem v22_at (r : Fin 1024) (j : Fin 128) :
    Read.val_main_v22 (F := Ideal) x6 (ix2 r j) = x6 (ix1 j) := by
  rw [Read.val_main_v22_apply, Read.val_main_v21_apply]
  refine congrArg x6 ?_
  idx1_eq

/-- The first node layer of the printed reference is the node layer on the inputs. -/
theorem layer1_eq :
    Read.val_main_v23 (F := Ideal) x0 x1 x3 x4 x5 x6 x7 = GraphLayers.nodeLayer x0 x1 x3 x4 x5 x6 x7 := by
  funext i
  obtain ⟨r, j, rfl⟩ : ∃ (r : Fin 1024) (j : Fin 128), i = ix2 r j := ⟨i 0, i 1, eq_ix2 i⟩
  rw [GraphLayers.nodeLayer_ix2, Read.val_main_v23_apply, Read.val_main_v20_apply, v22_at]
  unfold nodeAt
  refine congrArg₂ (· + ·) (Finset.sum_congr rfl fun c _ => ?_) rfl
  have h1 : Read.lidx_main_v20 (ix2 r j) c = ix2 r c := by idx2_eq
  have h2 : Read.ridx_main_v20 (ix2 r j) c = ix2 c j := by idx2_eq
  rw [h1, h2, Read.val_main_v18_apply, v17_at, v19_at]
  rfl

/-! ## The edge layer -/

theorem v29_at (e : Fin 4096) (v : Fin 1024) :
    Read.val_main_v29 (F := Ideal) x0 x1 x3 x4 x5 x6 x7 x10 (ix2 e v)
      = gate (GraphLayers.nodeLayer x0 x1 x3 x4 x5 x6 x7) x10 v := by
  rw [Read.val_main_v29_apply, Read.val_main_v28_apply, Read.val_main_v26_apply, Read.val_main_v25_apply, layer1_eq]
  generalize GraphLayers.nodeLayer x0 x1 x3 x4 x5 x6 x7 = Hv
  unfold gate
  refine Finset.sum_congr rfl fun k _ => ?_
  rw [Read.val_main_v24_apply]
  refine congrArg₂ (· * ·) (congrArg Hv ?_) (congrArg x10 ?_)
  · idx2_eq
  · idx2_eq

theorem v31_at (r c : Fin 4096) :
    Read.val_main_v31 (F := Ideal) x0 x1 x3 x4 x5 x6 x7 x10 (ix2 r c)
      = edgeMult (GraphLayers.nodeLayer x0 x1 x3 x4 x5 x6 x7) x4 x10 r c := by
  rw [Read.val_main_v31_apply]
  unfold edgeMult
  refine Finset.sum_congr rfl fun v _ => ?_
  rw [Read.val_main_v30_apply, Read.val_main_v27_apply]
  have h1 : Read.lidx_main_v31 (ix2 r c) v = ix2 r v := by idx2_eq
  have h2 : Read.idx_main_v27 (ix2 r v) = ix2 v r := by idx2_eq
  have h3 : Read.ridx_main_v31 (ix2 r c) v = ix2 v c := by idx2_eq
  rw [h1, h2, h3, v29_at]
  rfl

theorem v37_at (r c : Fin 4096) :
    Read.val_main_v37 (F := Ideal) (ix2 r c) = if c = r then (1 : EReal) else 0 := by
  rw [Read.val_main_v37_apply, Read.val_main_v36_apply, Read.val_main_v35_apply, Read.val_main_v32_apply,
    Read.val_main_v33_apply, Read.val_main_v34_apply, Read.val_main_c_0_apply]
  have := eye_val r.val c.val (by omega) (by omega)
  simp only [Fin.ext_iff]
  exact this

theorem v41_at (r c : Fin 4096) :
    Read.val_main_v41 (F := Ideal) x0 x1 x3 x4 x5 x6 x7 x10 (ix2 r c)
      = if c = r then (1 : EReal) else edgeMult (GraphLayers.nodeLayer x0 x1 x3 x4 x5 x6 x7) x4 x10 r c := by
  rw [Read.val_main_v41_apply, Read.val_main_v40_apply, Read.val_main_v39_apply, Read.val_main_v38_apply,
    Read.val_main_cst_1_apply, v37_at, v31_at]
  show (if c = r then (1 : EReal) else 0) + (Ideal.ofBits .f32 0x3F800000#32 - (if c = r then (1 : EReal) else 0)) * _ = _
  rw [Ideal.ofBits_one_f32]
  exact mask_arith (c = r) _

theorem v43_at (c : Fin 4096) (j : Fin 16) :
    Read.val_main_v43 (F := Ideal) x1 x8 (ix2 c j) = ∑ k : Fin 16, x1 (ix2 c k) * x8 (ix2 k j) := by
  rw [Read.val_main_v43_apply]
  refine Finset.sum_congr rfl fun k _ => ?_
  refine congrArg₂ (· * ·) (congrArg x1 ?_) (congrArg x8 ?_)
  · idx2_eq
  · idx2_eq

theorem v46_at (r : Fin 4096) (j : Fin 16) :
    Read.val_main_v46 (F := Ideal) x9 (ix2 r j) = x9 (ix1 j) := by
  rw [Read.val_main_v46_apply, Read.val_main_v45_apply]
  refine congrArg x9 ?_
  idx1_eq

/-- The edge layer of the printed reference is the edge layer on the new node features and the old edge features. -/
theorem layer2_eq :
    Read.val_main_v47 (F := Ideal) x0 x1 x2 x3 x4 x5 x6 x7 x8 x9 x10
      = GraphLayers.edgeLayer (GraphLayers.nodeLayer x0 x1 x3 x4 x5 x6 x7) x1 x2 x4 x8 x9 x10 := by
  funext i
  obtain ⟨r, j, rfl⟩ : ∃ (r : Fin 4096) (j : Fin 16), i = ix2 r j := ⟨i 0, i 1, eq_ix2 i⟩
  rw [GraphLayers.edgeLayer_ix2, Read.val_main_v47_apply, Read.val_main_v44_apply, v46_at]
  unfold edgeAt
  refine congrArg₂ (· + ·) (Finset.sum_congr rfl fun c _ => ?_) rfl
  have h1 : Read.lidx_main_v44 (ix2 r j) c = ix2 r c := by idx2_eq
  have h2 : Read.ridx_main_v44 (ix2 r j) c = ix2 c j := by idx2_eq
  rw [h1, h2, Read.val_main_v42_apply, v41_at, v43_at]
  rfl

/-! ## The second node layer -/

theorem v52_at (r : Fin 1024) (e : Fin 4096) :
    Read.val_main_v52 (F := Ideal) x0 x1 x2 x3 x4 x5 x6 x7 x8 x9 x10 x13 (ix2 r e)
      = gate (GraphLayers.edgeLayer (GraphLayers.nodeLayer x0 x1 x3 x4 x5 x6 x7) x1 x2 x4 x8 x9 x10) x13 e := by
  rw [Read.val_main_v52_apply, Read.val_main_v51_apply, Read.val_main_v50_apply, Read.val_main_v49_apply, layer2_eq]
  generalize GraphLayers.edgeLayer (GraphLayers.nodeLayer x0 x1 x3 x4 x5 x6 x7) x1 x2 x4 x8 x9 x10 = He
  unfold gate
  refine Finset.sum_congr rfl fun k _ => ?_
  rw [Read.val_main_v48_apply]
  refine congrArg₂ (· * ·) (congrArg He ?_) (congrArg x13 ?_)
  · idx2_eq
  · idx2_eq

theorem v55_at (r c : Fin 1024) :
    Read.val_main_v55 (F := Ideal) x0 x1 x2 x3 x4 x5 x6 x7 x8 x9 x10 x13 (ix2 r c)
      = nodeMult (GraphLayers.edgeLayer (GraphLayers.nodeLayer x0 x1 x3 x4 x5 x6 x7) x1 x2 x4 x8 x9 x10) x4 x13 r c := by
  rw [Read.val_main_v55_apply]
  unfold nodeMult
  refine Finset.sum_congr rfl fun e _ => ?_
  rw [Read.val_main_v53_apply, Read.val_main_v54_apply]
  have h1 : Read.lidx_main_v55 (ix2 r c) e = ix2 r e := by idx2_eq
  have h2 : Read.idx_main_v54 (Read.ridx_main_v55 (ix2 r c) e) = ix2 c e := by idx2_eq
  rw [h1, h2, v52_at]
  rfl

theorem v61_at (r c : Fin 1024) :
    Read.val_main_v61 (F := Ideal) (ix2 r c) = if c = r then (1 : EReal) else 0 := by
  rw [Read.val_main_v61_apply, Read.val_main_v60_apply, Read.val_main_v59_apply, Read.val_main_v56_apply,
    Read.val_main_v57_apply, Read.val_main_v58_apply, Read.val_main_c_2_apply]
  have := eye_val r.val c.val (by omega) (by omega)
  simp only [Fin.ext_iff]
  exact this

theorem v65_at (r c : Fin 1024) :
    Read.val_main_v65 (F := Ideal) x0 x1 x2 x3 x4 x5 x6 x7 x8 x9 x10 x13 (ix2 r c)
      = if c = r then (1 : EReal)
        else nodeMult (GraphLayers.edgeLayer (GraphLayers.nodeLayer x0 x1 x3 x4 x5 x6 x7) x1 x2 x4 x8 x9 x10) x4 x13 r c := by
  rw [Read.val_main_v65_apply, Read.val_main_v64_apply, Read.val_main_v63_apply, Read.val_main_v62_apply,
    Read.val_main_cst_3_apply, v61_at, v55_at]
  show (if c = r then (1 : EReal) else 0) + (Ideal.ofBits .f32 0x3F800000#32 - (if c = r then (1 : EReal) else 0)) * _ = _
  rw [Ideal.ofBits_one_f32]
  exact mask_arith (c = r) _

theorem v67_at (c : Fin 1024) (j : Fin 128) :
    Read.val_main_v67 (F := Ideal) x0 x1 x3 x4 x5 x6 x7 x11 (ix2 c j)
      = ∑ k : Fin 128, GraphLayers.nodeLayer x0 x1 x3 x4 x5 x6 x7 (ix2 c k) * x11 (ix2 k j) := by
  rw [Read.val_main_v67_apply, layer1_eq]
  generalize GraphLayers.nodeLayer x0 x1 x3 x4 x5 x6 x7 = Hv
  refine Finset.sum_congr rfl fun k _ => ?_
  refine congrArg₂ (· * ·) (congrArg Hv ?_) (congrArg x11 ?_)
  · idx2_eq
  · idx2_eq

theorem v70_at (r : Fin 1024) (j : Fin 128) :
    Read.val_main_v70 (F := Ideal) x12 (ix2 r j) = x12 (ix1 j) := by
  rw [Read.val_main_v70_apply, Read.val_main_v69_apply]
  refine congrArg x12 ?_
  idx1_eq

/-- The printed reference computes the three stacked layers. -/
theorem reference_eq :
    Read.val_main_v71 (F := Ideal) x0 x1 x2 x3 x4 x5 x6 x7 x8 x9 x10 x11 x12 x13
      = GraphLayers.network x0 x1 x2 x3 x4 x5 x6 x7 x8 x9 x10 x11 x12 x13 := by
  funext i
  obtain ⟨r, j, rfl⟩ : ∃ (r : Fin 1024) (j : Fin 128), i = ix2 r j := ⟨i 0, i 1, eq_ix2 i⟩
  unfold GraphLayers.network
  rw [GraphLayers.nodeLayer_ix2, Read.val_main_v71_apply, Read.val_main_v68_apply, v70_at]
  unfold nodeAt
  refine congrArg₂ (· + ·) (Finset.sum_congr rfl fun c _ => ?_) rfl
  have h1 : Read.lidx_main_v68 (ix2 r j) c = ix2 r c := by idx2_eq
  have h2 : Read.ridx_main_v68 (ix2 r j) c = ix2 c j := by idx2_eq
  rw [h1, h2, Read.val_main_v66_apply, v65_at, v67_at]
  rfl

end Cert.ReferenceIdeal.RefValue

end
-- ==== Proof.lean ====
/-
  Three stacked graph-convolution layers (node, edge, node), each fused into one kernel launch that tiles its output
  rows over a grid, against the same three layers written with whole-array operations.

  As extended reals both programs compute `Cert.GraphLayers.network` of the fourteen argument arrays:

  * each launch's result array is one whole-array function of the contents it is entered with (the stored blocks tile
    the array, a slab read at local row `r` of grid point `t` is the array at row `256 t + r`, and the kernel's diagonal
    test against `row + 256 · t` is the test against the global row); the three launches are chained through the host
    operations between them (a conversion to half precision, which is the identity on extended reals, and the bias
    vectors reshaped to rows);
  * the reference's stages, read one operation at a time, are the same three layers; its mask is written
    arithmetically, `eye + (1 - eye) · x`, where the kernel selects `1` on the diagonal and `x` off it — the same extended
    real for every `x`, because `0 · x = 0` there. No step uses that the inputs are finite.

  The three frame claims are the programs' runs with the results dropped; the idealization's ledger is six removed
  round trips through half precision, each the identity on extended reals.
-/
import proofs.«121829_g36584531428114_cont_8to1_b_754_6_alg».proof.Defs
import proofs.«121829_g36584531428114_cont_8to1_b_754_6_alg».proof.Proof.Gen.Kernel
import proofs.«121829_g36584531428114_cont_8to1_b_754_6_alg».proof.Proof.Gen.KernelIdeal
import proofs.«121829_g36584531428114_cont_8to1_b_754_6_alg».proof.Proof.Gen.ReferenceIdeal
import proofs.«121829_g36584531428114_cont_8to1_b_754_6_alg».proof.Proof.Gen.ReferenceIdeal.Run
import proofs.«121829_g36584531428114_cont_8to1_b_754_6_alg».proof.Proof.Gen.ReferenceIdeal.Read
import proofs.«121829_g36584531428114_cont_8to1_b_754_6_alg».proof.Proof.Gen.Pre_finite_inputs
import proofs.«121829_g36584531428114_cont_8to1_b_754_6_alg».proof.Proof.FrameKernel
import proofs.«121829_g36584531428114_cont_8to1_b_754_6_alg».proof.Proof.FrameKernelIdeal
import proofs.«121829_g36584531428114_cont_8to1_b_754_6_alg».proof.Proof.GraphLayers
import proofs.«121829_g36584531428114_cont_8to1_b_754_6_alg».proof.Proof.KernelLayers
import proofs.«121829_g36584531428114_cont_8to1_b_754_6_alg».proof.Proof.KernelPayloads
import proofs.«121829_g36584531428114_cont_8to1_b_754_6_alg».proof.Proof.KernelRegions
import proofs.«121829_g36584531428114_cont_8to1_b_754_6_alg».proof.Proof.KernelRun
import proofs.«121829_g36584531428114_cont_8to1_b_754_6_alg».proof.Proof.KernelFold
import proofs.«121829_g36584531428114_cont_8to1_b_754_6_alg».proof.Proof.ReferenceLayers
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.GenP.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The reference has no launch: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ledger: six round trips through half precision removed, two per launch (the gate's features and the gate row). -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

/-- The kernel's result array after the run is the network of the launch memory's arguments. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.GenP.W6 m ρ c (Proc.devRef .tc Cert.KernelIdeal.main_v6)
      = Cert.GraphLayers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) :=
  Cert.KernelIdeal.Fold.result_eq m ρ c
    (fun V => Cert.KernelIdeal.Regions.region0_array_of V (fun i he p trows tb adj hv w b r j => Cert.KernelIdeal.Payloads.node0_at i he p trows tb adj hv w b r j) c)
    (fun V => Cert.KernelIdeal.Regions.region1_array_of V (fun i hv p tcols tb adj he w b r j => Cert.KernelIdeal.Payloads.edge1_at i hv p tcols tb adj he w b r j) c)
    (fun V => Cert.KernelIdeal.Regions.region2_array_of V (fun i he p trows tb adj hv w b r j => Cert.KernelIdeal.Payloads.node2_at i he p trows tb adj hv w b r j) c)

/-- Both idealized programs, from memories that agree on the arguments, end with the network of those arguments in
    their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.GraphLayers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c => ⟨(h c).1.trans (kernel_result m ρ c), (h c).2⟩)
      (Cert.KernelIdeal.RunP.run_result m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13⟩ := hagree c
    rw [Cert.ReferenceIdeal.Read.val_main_v71_eq, Cert.ReferenceIdeal.RefValue.reference_eq, a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
   frame_kernel, frame_kernelIdeal, frame_referenceIdeal, preserves, algebraic⟩

end Cert.Proof

end
